-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v164)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v164) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3x2x800000 : Shape := ⟨3, ![3, 2, 800000]⟩
abbrev S3x128x128 : Shape := ⟨3, ![3, 128, 128]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn {F : FTy → Type} [FloatOps F] (main_arg0 : FVec F S100000x128 .f32) (main_arg1 : IVec S3x2x800000 32) (main_arg2 : FVec F S3x128x128 .f32) (main_arg3 : FVec F S3x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  main_v13
-- ==== Kernel.lean ====
abbrev S100000x128 : Shape := ⟨2, ![100000, 128]⟩
abbrev S3x2x800000 : Shape := ⟨3, ![3, 2, 800000]⟩
abbrev S3x128x128 : Shape := ⟨3, ![3, 128, 128]⟩
abbrev S3x128 : Shape := ⟨2, ![3, 128]⟩
abbrev S3x100000x128 : Shape := ⟨3, ![3, 100000, 128]⟩
abbrev S4000x128 : Shape := ⟨2, ![4000, 128]⟩
abbrev S1x128x128 : Shape := ⟨3, ![1, 128, 128]⟩
abbrev S1x4000x128 : Shape := ⟨3, ![1, 4000, 128]⟩
abbrev S128x128 : Shape := ⟨2, ![128, 128]⟩
abbrev S100000 : Shape := ⟨1, ![100000]⟩
abbrev S_ : Shape := ⟨0, ![]⟩
abbrev S1x2x800000 : Shape := ⟨3, ![1, 2, 800000]⟩
abbrev S2x800000 : Shape := ⟨2, ![2, 800000]⟩
abbrev S1x100000x128 : Shape := ⟨3, ![1, 100000, 128]⟩
abbrev S1x800000 : Shape := ⟨2, ![1, 800000]⟩
abbrev S800000 : Shape := ⟨1, ![800000]⟩
abbrev S900000 : Shape := ⟨1, ![900000]⟩
abbrev S900000x1 : Shape := ⟨2, ![900000, 1]⟩
abbrev S900000x128 : Shape := ⟨2, ![900000, 128]⟩
abbrev S1x128 : Shape := ⟨2, ![1, 128]⟩
abbrev S128 : Shape := ⟨1, ![128]⟩

abbrev nBuf : Space → Nat
  | .hbm => 212
  | .vmem => 6
  | .smem => 0
  | _ => 0

abbrev hbmTy0_0 (i : Nat) : BufTy := match i % 128 with
  | 0 => ⟨S100000x128, .f32⟩
  | 1 => ⟨S3x2x800000, .i32⟩
  | 2 => ⟨S3x128x128, .f32⟩
  | 3 => ⟨S3x128, .f32⟩
  | 4 => ⟨S3x100000x128, .f32⟩
  | 5 => ⟨S100000, .i32⟩
  | 6 => ⟨S_, .f32⟩
  | 7 => ⟨S100000x128, .f32⟩
  | 8 => ⟨S1x2x800000, .i32⟩
  | 9 => ⟨S2x800000, .i32⟩
  | 10 => ⟨S1x100000x128, .f32⟩
  | 11 => ⟨S100000x128, .f32⟩
  | 12 => ⟨S1x800000, .i32⟩
  | 13 => ⟨S800000, .i32⟩
  | 14 => ⟨S900000, .i32⟩
  | 15 => ⟨S1x800000, .i32⟩
  | 16 => ⟨S800000, .i32⟩
  | 17 => ⟨S900000, .i32⟩
  | 18 => ⟨S_, .f32⟩
  | 19 => ⟨S900000, .f32⟩
  | 20 => ⟨S_, .f32⟩
  | 21 => ⟨S100000, .f32⟩
  | 22 => ⟨S900000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S900000, .i32⟩
  | 37 => ⟨S900000, .i1⟩
  | 38 => ⟨S_, .i32⟩
  | 39 => ⟨S900000, .i32⟩
  | 40 => ⟨S900000, .i32⟩
  | 41 => ⟨S900000, .i32⟩
  | 42 => ⟨S900000x1, .i32⟩
  | 43 => ⟨S900000, .f32⟩
  | 44 => ⟨S_, .i32⟩
  | 45 => ⟨S900000, .i32⟩
  | 46 => ⟨S900000, .i1⟩
  | 47 => ⟨S_, .i32⟩
  | 48 => ⟨S900000, .i32⟩
  | 49 => ⟨S900000, .i32⟩
  | 50 => ⟨S900000, .i32⟩
  | 51 => ⟨S900000x1, .i32⟩
  | 52 => ⟨S900000, .f32⟩
  | 53 => ⟨S900000, .f32⟩
  | 54 => ⟨S_, .i32⟩
  | 55 => ⟨S900000, .i32⟩
  | 56 => ⟨S900000, .i1⟩
  | 57 => ⟨S_, .i32⟩
  | 58 => ⟨S900000, .i32⟩
  | 59 => ⟨S900000, .i32⟩
  | 60 => ⟨S900000, .i32⟩
  | 61 => ⟨S900000x1, .i32⟩
  | 62 => ⟨S900000x128, .f32⟩
  | 63 => ⟨S900000x1, .f32⟩
  | 64 => ⟨S900000x128, .f32⟩
  | 65 => ⟨S900000x128, .f32⟩
  | 66 => ⟨S_, .f32⟩
  | 67 => ⟨S100000x128, .f32⟩
  | 68 => ⟨S900000x1, .i32⟩
  | 69 => ⟨S100000x128, .f32⟩
  | 70 => ⟨S100000x128, .f32⟩
  | 71 => ⟨S1x128, .f32⟩
  | 72 => ⟨S128, .f32⟩
  | 73 => ⟨S1x128, .f32⟩
  | 74 => ⟨S100000x128, .f32⟩
  | 75 => ⟨S100000x128, .f32⟩
  | 76 => ⟨S1x2x800000, .i32⟩
  | 77 => ⟨S2x800000, .i32⟩
  | 78 => ⟨S1x100000x128, .f32⟩
  | 79 => ⟨S100000x128, .f32⟩
  | 80 => ⟨S1x800000, .i32⟩
  | 81 => ⟨S800000, .i32⟩
  | 82 => ⟨S900000, .i32⟩
  | 83 => ⟨S1x800000, .i32⟩
  | 84 => ⟨S800000, .i32⟩
  | 85 => ⟨S900000, .i32⟩
  | 86 => ⟨S_, .f32⟩
  | 87 => ⟨S900000, .f32⟩
  | 88 => ⟨S_, .f32⟩
  | 89 => ⟨S100000, .f32⟩
  | 90 => ⟨S900000x1, .i32⟩
  | 91 => ⟨S100000, .f32⟩
  | 92 => ⟨S_, .f32⟩
  | 93 => ⟨S100000, .f32⟩
  | 94 => ⟨S100000, .i1⟩
  | 95 => ⟨S_, .f32⟩
  | 96 => ⟨S100000, .f32⟩
  | 97 => ⟨S100000, .f32⟩
  | 98 => ⟨S100000, .f32⟩
  | 99 => ⟨S_, .f32⟩
  | 100 => ⟨S_, .f32⟩
  | 101 => ⟨S100000, .f32⟩
  | 102 => ⟨S100000, .f32⟩
  | 103 => ⟨S_, .i32⟩
  | 104 => ⟨S900000, .i32⟩
  | 105 => ⟨S900000, .i1⟩
  | 106 => ⟨S_, .i32⟩
  | 107 => ⟨S900000, .i32⟩
  | 108 => ⟨S900000, .i32⟩
  | 109 => ⟨S900000, .i32⟩
  | 110 => ⟨S900000x1, .i32⟩
  | 111 => ⟨S900000, .f32⟩
  | 112 => ⟨S_, .i32⟩
  | 113 => ⟨S900000, .i32⟩
  | 114 => ⟨S900000, .i1⟩
  | 115 => ⟨S_, .i32⟩
  | 116 => ⟨S900000, .i32⟩
  | 117 => ⟨S900000, .i32⟩
  | 118 => ⟨S900000, .i32⟩
  | 119 => ⟨S900000x1, .i32⟩
  | 120 => ⟨S900000, .f32⟩
  | 121 => ⟨S900000, .f32⟩
  | 122 => ⟨S_, .i32⟩
  | 123 => ⟨S900000, .i32⟩
  | 124 => ⟨S900000, .i1⟩
  | 125 => ⟨S_, .i32⟩
  | 126 => ⟨S900000, .i32⟩
  | 127 => ⟨S900000, .i32⟩
  | _ => ⟨S100000x128, .f32⟩

abbrev hbmTy0_1 (i : Nat) : BufTy := match i % 128 with
  | 0 => ⟨S900000, .i32⟩
  | 1 => ⟨S900000x1, .i32⟩
  | 2 => ⟨S900000x128, .f32⟩
  | 3 => ⟨S900000x1, .f32⟩
  | 4 => ⟨S900000x128, .f32⟩
  | 5 => ⟨S900000x128, .f32⟩
  | 6 => ⟨S_, .f32⟩
  | 7 => ⟨S100000x128, .f32⟩
  | 8 => ⟨S900000x1, .i32⟩
  | 9 => ⟨S100000x128, .f32⟩
  | 10 => ⟨S100000x128, .f32⟩
  | 11 => ⟨S1x128, .f32⟩
  | 12 => ⟨S128, .f32⟩
  | 13 => ⟨S1x128, .f32⟩
  | 14 => ⟨S100000x128, .f32⟩
  | 15 => ⟨S100000x128, .f32⟩
  | 16 => ⟨S1x2x800000, .i32⟩
  | 17 => ⟨S2x800000, .i32⟩
  | 18 => ⟨S1x100000x128, .f32⟩
  | 19 => ⟨S100000x128, .f32⟩
  | 20 => ⟨S1x800000, .i32⟩
  | 21 => ⟨S800000, .i32⟩
  | 22 => ⟨S900000, .i32⟩
  | 23 => ⟨S1x800000, .i32⟩
  | 24 => ⟨S800000, .i32⟩
  | 25 => ⟨S900000, .i32⟩
  | 26 => ⟨S_, .f32⟩
  | 27 => ⟨S900000, .f32⟩
  | 28 => ⟨S_, .f32⟩
  | 29 => ⟨S100000, .f32⟩
  | 30 => ⟨S900000x1, .i32⟩
  | 31 => ⟨S100000, .f32⟩
  | 32 => ⟨S_, .f32⟩
  | 33 => ⟨S100000, .f32⟩
  | 34 => ⟨S100000, .i1⟩
  | 35 => ⟨S_, .f32⟩
  | 36 => ⟨S100000, .f32⟩
  | 37 => ⟨S100000, .f32⟩
  | 38 => ⟨S100000, .f32⟩
  | 39 => ⟨S_, .f32⟩
  | 40 => ⟨S_, .f32⟩
  | 41 => ⟨S100000, .f32⟩
  | 42 => ⟨S100000, .f32⟩
  | 43 => ⟨S_, .i32⟩
  | 44 => ⟨S900000, .i32⟩
  | 45 => ⟨S900000, .i1⟩
  | 46 => ⟨S_, .i32⟩
  | 47 => ⟨S900000, .i32⟩
  | 48 => ⟨S900000, .i32⟩
  | 49 => ⟨S900000, .i32⟩
  | 50 => ⟨S900000x1, .i32⟩
  | 51 => ⟨S900000, .f32⟩
  | 52 => ⟨S_, .i32⟩
  | 53 => ⟨S900000, .i32⟩
  | 54 => ⟨S900000, .i1⟩
  | 55 => ⟨S_, .i32⟩
  | 56 => ⟨S900000, .i32⟩
  | 57 => ⟨S900000, .i32⟩
  | 58 => ⟨S900000, .i32⟩
  | 59 => ⟨S900000x1, .i32⟩
  | 60 => ⟨S900000, .f32⟩
  | 61 => ⟨S900000, .f32⟩
  | 62 => ⟨S_, .i32⟩
  | 63 => ⟨S900000, .i32⟩
  | 64 => ⟨S900000, .i1⟩
  | 65 => ⟨S_, .i32⟩
  | 66 => ⟨S900000, .i32⟩
  | 67 => ⟨S900000, .i32⟩
  | 68 => ⟨S900000, .i32⟩
  | 69 => ⟨S900000x1, .i32⟩
  | 70 => ⟨S900000x128, .f32⟩
  | 71 => ⟨S900000x1, .f32⟩
  | 72 => ⟨S900000x128, .f32⟩
  | 73 => ⟨S900000x128, .f32⟩
  | 74 => ⟨S_, .f32⟩
  | 75 => ⟨S100000x128, .f32⟩
  | 76 => ⟨S900000x1, .i32⟩
  | 77 => ⟨S100000x128, .f32⟩
  | 78 => ⟨S100000x128, .f32⟩
  | 79 => ⟨S1x128, .f32⟩
  | 80 => ⟨S128, .f32⟩
  | 81 => ⟨S1x128, .f32⟩
  | 82 => ⟨S100000x128, .f32⟩
  | 83 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S1x128x128, .f32⟩
  | .local _ .vmem, ⟨3, _⟩ => ⟨S1x128x128, .f32⟩
  | .local _ .vmem, ⟨4, _⟩ => ⟨S1x4000x128, .f32⟩
  | .local _ .vmem, ⟨5, _⟩ => ⟨S1x4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v22 : Ref sig .tc := ⟨.hbm, 34, rfl⟩
abbrev main_c : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_8 : Ref sig .tc := ⟨.hbm, 54, rfl⟩
abbrev main_v38 : Ref sig .tc := ⟨.hbm, 55, rfl⟩
abbrev main_v39 : Ref sig .tc := ⟨.hbm, 56, rfl⟩
abbrev main_c_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_11 : Ref sig .tc := ⟨.hbm, 86, rfl⟩
abbrev main_v67 : Ref sig .tc := ⟨.hbm, 87, rfl⟩
abbrev main_cst_12 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_13 : Ref sig .tc := ⟨.hbm, 92, rfl⟩
abbrev main_v71 : Ref sig .tc := ⟨.hbm, 93, rfl⟩
abbrev main_v72 : Ref sig .tc := ⟨.hbm, 94, rfl⟩
abbrev main_cst_14 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_15 : Ref sig .tc := ⟨.hbm, 99, rfl⟩
abbrev main_call1_v0 : Ref sig .tc := ⟨.hbm, 100, rfl⟩
abbrev main_call1_v1 : Ref sig .tc := ⟨.hbm, 101, rfl⟩
abbrev main_v76 : Ref sig .tc := ⟨.hbm, 102, rfl⟩
abbrev main_c_16 : Ref sig .tc := ⟨.hbm, 103, rfl⟩
abbrev main_v77 : Ref sig .tc := ⟨.hbm, 104, rfl⟩
abbrev main_v78 : Ref sig .tc := ⟨.hbm, 105, rfl⟩
abbrev main_c_17 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_c_18 : Ref sig .tc := ⟨.hbm, 112, rfl⟩
abbrev main_v84 : Ref sig .tc := ⟨.hbm, 113, rfl⟩
abbrev main_v85 : Ref sig .tc := ⟨.hbm, 114, rfl⟩
abbrev main_c_19 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_c_20 : Ref sig .tc := ⟨.hbm, 122, rfl⟩
abbrev main_v92 : Ref sig .tc := ⟨.hbm, 123, rfl⟩
abbrev main_v93 : Ref sig .tc := ⟨.hbm, 124, rfl⟩
abbrev main_c_21 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_cst_22 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_cst_23 : Ref sig .tc := ⟨.hbm, 154, rfl⟩
abbrev main_v121 : Ref sig .tc := ⟨.hbm, 155, rfl⟩
abbrev main_cst_24 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_cst_25 : Ref sig .tc := ⟨.hbm, 160, rfl⟩
abbrev main_v125 : Ref sig .tc := ⟨.hbm, 161, rfl⟩
abbrev main_v126 : Ref sig .tc := ⟨.hbm, 162, rfl⟩
abbrev main_cst_26 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_cst_27 : Ref sig .tc := ⟨.hbm, 167, rfl⟩
abbrev main_call2_v0 : Ref sig .tc := ⟨.hbm, 168, rfl⟩
abbrev main_call2_v1 : Ref sig .tc := ⟨.hbm, 169, rfl⟩
abbrev main_v130 : Ref sig .tc := ⟨.hbm, 170, rfl⟩
abbrev main_c_28 : Ref sig .tc := ⟨.hbm, 171, rfl⟩
abbrev main_v131 : Ref sig .tc := ⟨.hbm, 172, rfl⟩
abbrev main_v132 : Ref sig .tc := ⟨.hbm, 173, rfl⟩
abbrev main_c_29 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_c_30 : Ref sig .tc := ⟨.hbm, 180, rfl⟩
abbrev main_v138 : Ref sig .tc := ⟨.hbm, 181, rfl⟩
abbrev main_v139 : Ref sig .tc := ⟨.hbm, 182, rfl⟩
abbrev main_c_31 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_c_32 : Ref sig .tc := ⟨.hbm, 190, rfl⟩
abbrev main_v146 : Ref sig .tc := ⟨.hbm, 191, rfl⟩
abbrev main_v147 : Ref sig .tc := ⟨.hbm, 192, rfl⟩
abbrev main_c_33 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_cst_34 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x4000x128_S1x4000x128_0_0_0 : ∀ a, (![0, 0, 0] : Fin 3 → Nat) a + S1x4000x128.size a ≤ S1x4000x128.size a
  h_S1x4000x128 : 0 < S1x4000x128.numel
  shapeCasts_S1x4000x128_S4000x128 : S1x4000x128.ShapeCasts S4000x128
  shapeCasts_S4000x128_S1x4000x128 : S4000x128.ShapeCasts S1x4000x128
  bcast_S_S100000x128 : S_.BroadcastsInDim S100000x128 (![] : Fin 0 → Fin S100000x128.rank)
  slices_S3x2x800000_S1x2x800000_0_0_0 : S3x2x800000.Slices ![0, 0, 0] S1x2x800000
  shapeCasts_S1x2x800000_S2x800000 : S1x2x800000.ShapeCasts S2x800000
  slices_S3x100000x128_S1x100000x128_0_0_0 : S3x100000x128.Slices ![0, 0, 0] S1x100000x128
  shapeCasts_S1x100000x128_S100000x128 : S1x100000x128.ShapeCasts S100000x128
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x128_0_1 : S900000x1.BroadcastsInDim S900000x128 (![0, 1] : Fin 2 → Fin S900000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x2x800000_S1x2x800000_1_0_0 : S3x2x800000.Slices ![1, 0, 0] S1x2x800000
  slices_S3x100000x128_S1x100000x128_1_0_0 : S3x100000x128.Slices ![1, 0, 0] S1x100000x128
  slices_S3x128_S1x128_1_0 : S3x128.Slices ![1, 0] S1x128
  slices_S3x2x800000_S1x2x800000_2_0_0 : S3x2x800000.Slices ![2, 0, 0] S1x2x800000
  slices_S3x100000x128_S1x100000x128_2_0_0 : S3x100000x128.Slices ![2, 0, 0] S1x100000x128
  slices_S3x128_S1x128_2_0 : S3x128.Slices ![2, 0] S1x128
  dot_S4000x128_S128x128_S4000x128_1_0_0_1_n_n_wf : DotDims.WF S4000x128 S128x128 S4000x128 [1] [0] [0] [1] [] []
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S3x128x128.size a
  hwx0_1 : ∀ i : grid0.Coords, EltTy.bits .f32 = 32 ∨ (Rect.block (s := S3x128x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4000x128.size a ≤ S3x100000x128.size a
  hwx0_2 : ∀ i : grid0.Coords, EltTy.bits .f32 = 32 ∨ (Rect.block (s := S3x100000x128) S1x4000x128.size (cc0_transform_2 i) (hinb0_2 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S3x2x800000 : Shape := ⟨3, ![3, 2, 800000]⟩
abbrev S3x128x128 : Shape := ⟨3, ![3, 128, 128]⟩
abbrev S3x128 : Shape := ⟨2, ![3, 128]⟩
abbrev S_ : Shape := ⟨0, ![]⟩
abbrev S1x2x800000 : Shape := ⟨3, ![1, 2, 800000]⟩
abbrev S2x800000 : Shape := ⟨2, ![2, 800000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S900000x1 : Shape := ⟨2, ![900000, 1]⟩
abbrev S900000x128 : Shape := ⟨2, ![900000, 128]⟩

abbrev nBuf : Space → Nat
  | .hbm => 216
  | .vmem => 0
  | .smem => 0
  | _ => 0

abbrev hbmTy0_0 (i : Nat) : BufTy := match i % 128 with
  | 0 => ⟨S100000x128, .f32⟩
  | 1 => ⟨S3x2x800000, .i32⟩
  | 2 => ⟨S3x128x128, .f32⟩
  | 3 => ⟨S3x128, .f32⟩
  | 4 => ⟨S_, .f32⟩
  | 5 => ⟨S100000x128, .f32⟩
  | 6 => ⟨S1x2x800000, .i32⟩
  | 7 => ⟨S2x800000, .i32⟩
  | 8 => ⟨S1x128x128, .f32⟩
  | 9 => ⟨S128x128, .f32⟩
  | 10 => ⟨S1x128, .f32⟩
  | 11 => ⟨S128, .f32⟩
  | 12 => ⟨S100000x128, .f32⟩
  | 13 => ⟨S100000, .i32⟩
  | 14 => ⟨S1x800000, .i32⟩
  | 15 => ⟨S800000, .i32⟩
  | 16 => ⟨S900000, .i32⟩
  | 17 => ⟨S1x800000, .i32⟩
  | 18 => ⟨S800000, .i32⟩
  | 19 => ⟨S900000, .i32⟩
  | 20 => ⟨S_, .f32⟩
  | 21 => ⟨S900000, .f32⟩
  | 22 => ⟨S_, .f32⟩
  | 23 => ⟨S100000, .f32⟩
  | 24 => ⟨S900000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S900000, .i32⟩
  | 39 => ⟨S900000, .i1⟩
  | 40 => ⟨S_, .i32⟩
  | 41 => ⟨S900000, .i32⟩
  | 42 => ⟨S900000, .i32⟩
  | 43 => ⟨S900000, .i32⟩
  | 44 => ⟨S900000x1, .i32⟩
  | 45 => ⟨S900000, .f32⟩
  | 46 => ⟨S_, .i32⟩
  | 47 => ⟨S900000, .i32⟩
  | 48 => ⟨S900000, .i1⟩
  | 49 => ⟨S_, .i32⟩
  | 50 => ⟨S900000, .i32⟩
  | 51 => ⟨S900000, .i32⟩
  | 52 => ⟨S900000, .i32⟩
  | 53 => ⟨S900000x1, .i32⟩
  | 54 => ⟨S900000, .f32⟩
  | 55 => ⟨S900000, .f32⟩
  | 56 => ⟨S_, .i32⟩
  | 57 => ⟨S900000, .i32⟩
  | 58 => ⟨S900000, .i1⟩
  | 59 => ⟨S_, .i32⟩
  | 60 => ⟨S900000, .i32⟩
  | 61 => ⟨S900000, .i32⟩
  | 62 => ⟨S900000, .i32⟩
  | 63 => ⟨S900000x1, .i32⟩
  | 64 => ⟨S900000x128, .f32⟩
  | 65 => ⟨S900000x1, .f32⟩
  | 66 => ⟨S900000x128, .f32⟩
  | 67 => ⟨S900000x128, .f32⟩
  | 68 => ⟨S_, .f32⟩
  | 69 => ⟨S100000x128, .f32⟩
  | 70 => ⟨S900000x1, .i32⟩
  | 71 => ⟨S100000x128, .f32⟩
  | 72 => ⟨S1x128, .f32⟩
  | 73 => ⟨S100000x128, .f32⟩
  | 74 => ⟨S100000x128, .f32⟩
  | 75 => ⟨S100000x128, .f32⟩
  | 76 => ⟨S1x2x800000, .i32⟩
  | 77 => ⟨S2x800000, .i32⟩
  | 78 => ⟨S1x128x128, .f32⟩
  | 79 => ⟨S128x128, .f32⟩
  | 80 => ⟨S1x128, .f32⟩
  | 81 => ⟨S128, .f32⟩
  | 82 => ⟨S100000x128, .f32⟩
  | 83 => ⟨S100000, .i32⟩
  | 84 => ⟨S1x800000, .i32⟩
  | 85 => ⟨S800000, .i32⟩
  | 86 => ⟨S900000, .i32⟩
  | 87 => ⟨S1x800000, .i32⟩
  | 88 => ⟨S800000, .i32⟩
  | 89 => ⟨S900000, .i32⟩
  | 90 => ⟨S_, .f32⟩
  | 91 => ⟨S900000, .f32⟩
  | 92 => ⟨S_, .f32⟩
  | 93 => ⟨S100000, .f32⟩
  | 94 => ⟨S900000x1, .i32⟩
  | 95 => ⟨S100000, .f32⟩
  | 96 => ⟨S_, .f32⟩
  | 97 => ⟨S100000, .f32⟩
  | 98 => ⟨S100000, .i1⟩
  | 99 => ⟨S_, .f32⟩
  | 100 => ⟨S100000, .f32⟩
  | 101 => ⟨S100000, .f32⟩
  | 102 => ⟨S100000, .f32⟩
  | 103 => ⟨S_, .f32⟩
  | 104 => ⟨S_, .f32⟩
  | 105 => ⟨S100000, .f32⟩
  | 106 => ⟨S100000, .f32⟩
  | 107 => ⟨S_, .i32⟩
  | 108 => ⟨S900000, .i32⟩
  | 109 => ⟨S900000, .i1⟩
  | 110 => ⟨S_, .i32⟩
  | 111 => ⟨S900000, .i32⟩
  | 112 => ⟨S900000, .i32⟩
  | 113 => ⟨S900000, .i32⟩
  | 114 => ⟨S900000x1, .i32⟩
  | 115 => ⟨S900000, .f32⟩
  | 116 => ⟨S_, .i32⟩
  | 117 => ⟨S900000, .i32⟩
  | 118 => ⟨S900000, .i1⟩
  | 119 => ⟨S_, .i32⟩
  | 120 => ⟨S900000, .i32⟩
  | 121 => ⟨S900000, .i32⟩
  | 122 => ⟨S900000, .i32⟩
  | 123 => ⟨S900000x1, .i32⟩
  | 124 => ⟨S900000, .f32⟩
  | 125 => ⟨S900000, .f32⟩
  | 126 => ⟨S_, .i32⟩
  | 127 => ⟨S900000, .i32⟩
  | _ => ⟨S100000x128, .f32⟩

abbrev hbmTy0_1 (i : Nat) : BufTy := match i % 128 with
  | 0 => ⟨S900000, .i1⟩
  | 1 => ⟨S_, .i32⟩
  | 2 => ⟨S900000, .i32⟩
  | 3 => ⟨S900000, .i32⟩
  | 4 => ⟨S900000, .i32⟩
  | 5 => ⟨S900000x1, .i32⟩
  | 6 => ⟨S900000x128, .f32⟩
  | 7 => ⟨S900000x1, .f32⟩
  | 8 => ⟨S900000x128, .f32⟩
  | 9 => ⟨S900000x128, .f32⟩
  | 10 => ⟨S_, .f32⟩
  | 11 => ⟨S100000x128, .f32⟩
  | 12 => ⟨S900000x1, .i32⟩
  | 13 => ⟨S100000x128, .f32⟩
  | 14 => ⟨S1x128, .f32⟩
  | 15 => ⟨S100000x128, .f32⟩
  | 16 => ⟨S100000x128, .f32⟩
  | 17 => ⟨S100000x128, .f32⟩
  | 18 => ⟨S1x2x800000, .i32⟩
  | 19 => ⟨S2x800000, .i32⟩
  | 20 => ⟨S1x128x128, .f32⟩
  | 21 => ⟨S128x128, .f32⟩
  | 22 => ⟨S1x128, .f32⟩
  | 23 => ⟨S128, .f32⟩
  | 24 => ⟨S100000x128, .f32⟩
  | 25 => ⟨S100000, .i32⟩
  | 26 => ⟨S1x800000, .i32⟩
  | 27 => ⟨S800000, .i32⟩
  | 28 => ⟨S900000, .i32⟩
  | 29 => ⟨S1x800000, .i32⟩
  | 30 => ⟨S800000, .i32⟩
  | 31 => ⟨S900000, .i32⟩
  | 32 => ⟨S_, .f32⟩
  | 33 => ⟨S900000, .f32⟩
  | 34 => ⟨S_, .f32⟩
  | 35 => ⟨S100000, .f32⟩
  | 36 => ⟨S900000x1, .i32⟩
  | 37 => ⟨S100000, .f32⟩
  | 38 => ⟨S_, .f32⟩
  | 39 => ⟨S100000, .f32⟩
  | 40 => ⟨S100000, .i1⟩
  | 41 => ⟨S_, .f32⟩
  | 42 => ⟨S100000, .f32⟩
  | 43 => ⟨S100000, .f32⟩
  | 44 => ⟨S100000, .f32⟩
  | 45 => ⟨S_, .f32⟩
  | 46 => ⟨S_, .f32⟩
  | 47 => ⟨S100000, .f32⟩
  | 48 => ⟨S100000, .f32⟩
  | 49 => ⟨S_, .i32⟩
  | 50 => ⟨S900000, .i32⟩
  | 51 => ⟨S900000, .i1⟩
  | 52 => ⟨S_, .i32⟩
  | 53 => ⟨S900000, .i32⟩
  | 54 => ⟨S900000, .i32⟩
  | 55 => ⟨S900000, .i32⟩
  | 56 => ⟨S900000x1, .i32⟩
  | 57 => ⟨S900000, .f32⟩
  | 58 => ⟨S_, .i32⟩
  | 59 => ⟨S900000, .i32⟩
  | 60 => ⟨S900000, .i1⟩
  | 61 => ⟨S_, .i32⟩
  | 62 => ⟨S900000, .i32⟩
  | 63 => ⟨S900000, .i32⟩
  | 64 => ⟨S900000, .i32⟩
  | 65 => ⟨S900000x1, .i32⟩
  | 66 => ⟨S900000, .f32⟩
  | 67 => ⟨S900000, .f32⟩
  | 68 => ⟨S_, .i32⟩
  | 69 => ⟨S900000, .i32⟩
  | 70 => ⟨S900000, .i1⟩
  | 71 => ⟨S_, .i32⟩
  | 72 => ⟨S900000, .i32⟩
  | 73 => ⟨S900000, .i32⟩
  | 74 => ⟨S900000, .i32⟩
  | 75 => ⟨S900000x1, .i32⟩
  | 76 => ⟨S900000x128, .f32⟩
  | 77 => ⟨S900000x1, .f32⟩
  | 78 => ⟨S900000x128, .f32⟩
  | 79 => ⟨S900000x128, .f32⟩
  | 80 => ⟨S_, .f32⟩
  | 81 => ⟨S100000x128, .f32⟩
  | 82 => ⟨S900000x1, .i32⟩
  | 83 => ⟨S100000x128, .f32⟩
  | 84 => ⟨S1x128, .f32⟩
  | 85 => ⟨S100000x128, .f32⟩
  | 86 => ⟨S100000x128, .f32⟩
  | 87 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v24 : Ref sig .tc := ⟨.hbm, 36, rfl⟩
abbrev main_c : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_8 : Ref sig .tc := ⟨.hbm, 56, rfl⟩
abbrev main_v40 : Ref sig .tc := ⟨.hbm, 57, rfl⟩
abbrev main_v41 : Ref sig .tc := ⟨.hbm, 58, rfl⟩
abbrev main_c_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_11 : Ref sig .tc := ⟨.hbm, 90, rfl⟩
abbrev main_v71 : Ref sig .tc := ⟨.hbm, 91, rfl⟩
abbrev main_cst_12 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_13 : Ref sig .tc := ⟨.hbm, 96, rfl⟩
abbrev main_v75 : Ref sig .tc := ⟨.hbm, 97, rfl⟩
abbrev main_v76 : Ref sig .tc := ⟨.hbm, 98, rfl⟩
abbrev main_cst_14 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_15 : Ref sig .tc := ⟨.hbm, 103, rfl⟩
abbrev main_call1_v0 : Ref sig .tc := ⟨.hbm, 104, rfl⟩
abbrev main_call1_v1 : Ref sig .tc := ⟨.hbm, 105, rfl⟩
abbrev main_v80 : Ref sig .tc := ⟨.hbm, 106, rfl⟩
abbrev main_c_16 : Ref sig .tc := ⟨.hbm, 107, rfl⟩
abbrev main_v81 : Ref sig .tc := ⟨.hbm, 108, rfl⟩
abbrev main_v82 : Ref sig .tc := ⟨.hbm, 109, rfl⟩
abbrev main_c_17 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_c_18 : Ref sig .tc := ⟨.hbm, 116, rfl⟩
abbrev main_v88 : Ref sig .tc := ⟨.hbm, 117, rfl⟩
abbrev main_v89 : Ref sig .tc := ⟨.hbm, 118, rfl⟩
abbrev main_c_19 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_c_20 : Ref sig .tc := ⟨.hbm, 126, rfl⟩
abbrev main_v96 : Ref sig .tc := ⟨.hbm, 127, rfl⟩
abbrev main_v97 : Ref sig .tc := ⟨.hbm, 128, rfl⟩
abbrev main_c_21 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_22 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_cst_23 : Ref sig .tc := ⟨.hbm, 160, rfl⟩
abbrev main_v127 : Ref sig .tc := ⟨.hbm, 161, rfl⟩
abbrev main_cst_24 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_cst_25 : Ref sig .tc := ⟨.hbm, 166, rfl⟩
abbrev main_v131 : Ref sig .tc := ⟨.hbm, 167, rfl⟩
abbrev main_v132 : Ref sig .tc := ⟨.hbm, 168, rfl⟩
abbrev main_cst_26 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_cst_27 : Ref sig .tc := ⟨.hbm, 173, rfl⟩
abbrev main_call2_v0 : Ref sig .tc := ⟨.hbm, 174, rfl⟩
abbrev main_call2_v1 : Ref sig .tc := ⟨.hbm, 175, rfl⟩
abbrev main_v136 : Ref sig .tc := ⟨.hbm, 176, rfl⟩
abbrev main_c_28 : Ref sig .tc := ⟨.hbm, 177, rfl⟩
abbrev main_v137 : Ref sig .tc := ⟨.hbm, 178, rfl⟩
abbrev main_v138 : Ref sig .tc := ⟨.hbm, 179, rfl⟩
abbrev main_c_29 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_c_30 : Ref sig .tc := ⟨.hbm, 186, rfl⟩
abbrev main_v144 : Ref sig .tc := ⟨.hbm, 187, rfl⟩
abbrev main_v145 : Ref sig .tc := ⟨.hbm, 188, rfl⟩
abbrev main_c_31 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_c_32 : Ref sig .tc := ⟨.hbm, 196, rfl⟩
abbrev main_v152 : Ref sig .tc := ⟨.hbm, 197, rfl⟩
abbrev main_v153 : Ref sig .tc := ⟨.hbm, 198, rfl⟩
abbrev main_c_33 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_cst_34 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩

abbrev nD : Nat := 1
abbrev τ : Topo := Topo.v7x

variable {F : FTy → Type} [FloatOps F]

class Facts₀ : Prop where
  bcast_S_S100000x128 : S_.BroadcastsInDim S100000x128 (![] : Fin 0 → Fin S100000x128.rank)
  slices_S3x2x800000_S1x2x800000_0_0_0 : S3x2x800000.Slices ![0, 0, 0] S1x2x800000
  shapeCasts_S1x2x800000_S2x800000 : S1x2x800000.ShapeCasts S2x800000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x128_0_1 : S900000x1.BroadcastsInDim S900000x128 (![0, 1] : Fin 2 → Fin S900000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x2x800000_S1x2x800000_1_0_0 : S3x2x800000.Slices ![1, 0, 0] S1x2x800000
  slices_S3x128x128_S1x128x128_1_0_0 : S3x128x128.Slices ![1, 0, 0] S1x128x128
  slices_S3x128_S1x128_1_0 : S3x128.Slices ![1, 0] S1x128
  slices_S3x2x800000_S1x2x800000_2_0_0 : S3x2x800000.Slices ![2, 0, 0] S1x2x800000
  slices_S3x128x128_S1x128x128_2_0_0 : S3x128x128.Slices ![2, 0, 0] S1x128x128
  slices_S3x128_S1x128_2_0 : S3x128.Slices ![2, 0] S1x128
  dot_S100000x128_S128x128_S100000x128_1_0_0_1_n_n_wf : DotDims.WF S100000x128 S128x128 S100000x128 [1] [0] [0] [1] [] []
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf

class Facts : Prop extends Facts₀ where

variable [Facts]
-- ==== Proof.KTail.lean ====
/-
  The host lines that follow the kernel region of this program, read as one block: seven stretches of
  StableHLO operations (the three graph convolutions' degree normalisation, gathers and scatter-adds, and the
  running sum with the biases).  What is shown here is only where they write: every operation writes its own
  result buffer, and none of those is one of the four argument arrays or the array x·W the region produced.
  Hence the arguments end as they were launched, and the region's array is read by the later lines as the
  region left it.
-/
import proofs.«168616_j62766652064043_1_alg».proof.Proof.Gen.Kernel.Launch
import proofs.«168616_j62766652064043_1_alg».proof.Proof.Gen.Kernel.Skeleton
import proofs.«168616_j62766652064043_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The lines after the region, stretch by stretch, in program order. -/
abbrev tailOps : List (List (HloOp τ sig (Elt F))) :=
  [hostOps1, hostOps1_1, hostOps1_2, hostOps1_3, hostOps1_4, hostOps1_5, hostOps1_6]

/-- The buffers of core `c` when the region is entered: nothing runs before it, so they are as launched. -/
abbrev V0 (c : Dev nD) : Valuation τ sig (Elt F) := StableHlo.after (List.flatten []) (fun b => m (c, b))
/-- The same, read at a reference. -/
abbrev V (c : Dev nD) (b : Ref sig .tc) : Buf (Elt F) ((c : Thread nD τ).loc b) := V0 m c (Proc.devRef .tc b)

/-! ## No line allocates -/

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

theorem tail_fresh : ∀ ops ∈ (tailOps : List (List (HloOp τ sig (Elt F)))), ∀ op ∈ ops, op.fresh = ∅ := by
  intro ops hops
  simp only [List.mem_cons, List.mem_nil_iff, or_false] at hops
  rcases hops with rfl | rfl | rfl | rfl | rfl | rfl | rfl
  · exact List.forall_iff_forall_mem.mp hostOps1_fresh
  · exact List.forall_iff_forall_mem.mp hostOps1_1_fresh
  · exact List.forall_iff_forall_mem.mp hostOps1_2_fresh
  · exact List.forall_iff_forall_mem.mp hostOps1_3_fresh
  · exact List.forall_iff_forall_mem.mp hostOps1_4_fresh
  · exact List.forall_iff_forall_mem.mp hostOps1_5_fresh
  · exact List.forall_iff_forall_mem.mp hostOps1_6_fresh

/-! ## Every line stays within the unscoped buffers -/

theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-! ## No line writes an argument array or the region's result array -/

/-- The five buffers the later lines only read: the arguments x, edges, W, b and the array x·W. -/
def Kept (r : Ref sig .tc) : Prop :=
  r = main_arg0 ∨ r = main_arg1 ∨ r = main_arg2 ∨ r = main_arg3 ∨ r = main_v0

theorem hostOps1_keeps : (hostOps1 : List (HloOp τ sig (Elt F))).Forall fun op => ∀ r, Kept r → Proc.devRef .tc r ∉ op.writes := by
  unfold Kept
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (rintro r (rfl | rfl | rfl | rfl | rfl) <;> exact StableHlo.devRef_ne_of_ne (by decide))
theorem hostOps1_1_keeps : (hostOps1_1 : List (HloOp τ sig (Elt F))).Forall fun op => ∀ r, Kept r → Proc.devRef .tc r ∉ op.writes := by
  unfold Kept
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (rintro r (rfl | rfl | rfl | rfl | rfl) <;> exact StableHlo.devRef_ne_of_ne (by decide))
theorem hostOps1_2_keeps : (hostOps1_2 : List (HloOp τ sig (Elt F))).Forall fun op => ∀ r, Kept r → Proc.devRef .tc r ∉ op.writes := by
  unfold Kept
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (rintro r (rfl | rfl | rfl | rfl | rfl) <;> exact StableHlo.devRef_ne_of_ne (by decide))
theorem hostOps1_3_keeps : (hostOps1_3 : List (HloOp τ sig (Elt F))).Forall fun op => ∀ r, Kept r → Proc.devRef .tc r ∉ op.writes := by
  unfold Kept
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (rintro r (rfl | rfl | rfl | rfl | rfl) <;> exact StableHlo.devRef_ne_of_ne (by decide))
theorem hostOps1_4_keeps : (hostOps1_4 : List (HloOp τ sig (Elt F))).Forall fun op => ∀ r, Kept r → Proc.devRef .tc r ∉ op.writes := by
  unfold Kept
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (rintro r (rfl | rfl | rfl | rfl | rfl) <;> exact StableHlo.devRef_ne_of_ne (by decide))
theorem hostOps1_5_keeps : (hostOps1_5 : List (HloOp τ sig (Elt F))).Forall fun op => ∀ r, Kept r → Proc.devRef .tc r ∉ op.writes := by
  unfold Kept
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (rintro r (rfl | rfl | rfl | rfl | rfl) <;> exact StableHlo.devRef_ne_of_ne (by decide))
theorem hostOps1_6_keeps : (hostOps1_6 : List (HloOp τ sig (Elt F))).Forall fun op => ∀ r, Kept r → Proc.devRef .tc r ∉ op.writes := by
  unfold Kept
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (rintro r (rfl | rfl | rfl | rfl | rfl) <;> exact StableHlo.devRef_ne_of_ne (by decide))

theorem tail_keeps : ∀ ops ∈ (tailOps : List (List (HloOp τ sig (Elt F)))), ∀ op ∈ ops,
    ∀ r, Kept r → Proc.devRef .tc r ∉ op.writes := by
  intro ops hops
  simp only [List.mem_cons, List.mem_nil_iff, or_false] at hops
  rcases hops with rfl | rfl | rfl | rfl | rfl | rfl | rfl
  · exact List.forall_iff_forall_mem.mp hostOps1_keeps
  · exact List.forall_iff_forall_mem.mp hostOps1_1_keeps
  · exact List.forall_iff_forall_mem.mp hostOps1_2_keeps
  · exact List.forall_iff_forall_mem.mp hostOps1_3_keeps
  · exact List.forall_iff_forall_mem.mp hostOps1_4_keeps
  · exact List.forall_iff_forall_mem.mp hostOps1_5_keeps
  · exact List.forall_iff_forall_mem.mp hostOps1_6_keeps

/-- The three arrays the region stages are among the five. -/
theorem kept_arr : ∀ w : Fin 3, Kept (Pipeline.arrRef spec0 w) := by
  unfold Kept; decide

theorem tail_keeps_arr : ∀ ops ∈ (tailOps : List (List (HloOp τ sig (Elt F)))), ∀ op ∈ ops,
    ∀ w, Proc.devRef .tc (Pipeline.arrRef spec0 w) ∉ op.writes :=
  fun ops hops op hop w => tail_keeps ops hops op hop _ (kept_arr w)

/-! ## @main is the region followed by those lines -/

theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by trivial) (by trivial) main_chain

/-- A kept buffer that is no array of the region holds, after all the lines, what it held at launch. -/
theorem tail_kept (dats : (p : Fin 1) → (c : Dev nD) → Dat τ (Elt F) Unit ℕ (UR sig nD τ) ℕ (cfgs p) c) (c : Dev nD)
    (r : Ref sig .tc) (hr : Kept r) (hne : ∀ w, Pipeline.arrRef spec0 w ≠ r) :
    Pipeline.afterTail₀ cfgs dats 0 (V0 m) tailOps c r = m ((c : Thread nD τ).loc r) := by
  unfold Pipeline.afterTail₀
  have hnw : ∀ op ∈ (tailOps (F := F)).flatten, Proc.devRef (τ := τ) .tc r ∉ op.writes := fun op hop => by
    obtain ⟨ops, hops, hop'⟩ := List.mem_flatten.mp hop
    exact tail_keeps ops hops op hop' r hr
  rw [StableHlo.after_of_forall_not_mem (b := Proc.devRef .tc r) _ _ hnw,
    Pipeline.withArrays_of_ne _ c (V0 m c) _ r hne]
  rfl

end Cert.Kernel.Fr

end
-- ==== Proof.KBody.lean ====
/-
  The kernel region of this program: a 3 × 25 grid; at the point (r, i) the body reads rows 4000·i … 4000·i + 3999
  of x (a 4000 × 128 block) and the whole 128 × 128 matrix W[r], multiplies them, and writes the product as block
  (r, i) of a 3 × 100000 × 128 array.  Shown here: the body run on its three staging buffers leaves the two inputs
  as found and the output buffer at the product of the two blocks; hence the whole program — the region, then the
  host lines that follow it — runs to the end from any memory, the three staged arrays ending at what the blocks
  written back make of them and every other buffer at what the host lines compute; in particular the four
  argument arrays end unchanged.
-/
import proofs.«168616_j62766652064043_1_alg».proof.Proof.KTail

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at grid point `t`, read off its array as launched. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The x-window's staging buffer holds the point's block of x whenever the body runs: an input is either
    fetched at the point, or its block index has not moved since the point before. -/
theorem before_x_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the W-window, which is fetched only when the relation index changes. -/
theorem before_w_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output buffer -/

/-- The three rectangles the body accesses: each is its buffer whole. -/
abbrev rx : Rect S4000x128 := Rect.unit (s := S4000x128) ![0, 0] S4000x128.size inb_S4000x128_S4000x128_0_0
abbrev rw' : Rect S1x128x128 := Rect.unit (s := S1x128x128) ![0, 0, 0] S1x128x128.size inb_S1x128x128_S1x128x128_0_0_0
abbrev ro : Rect S1x4000x128 := Rect.unit (s := S1x4000x128) ![0, 0, 0] S1x4000x128.size inb_S1x4000x128_S1x4000x128_0_0_0

/-- The output buffer after the body: its one store, of the product of the two loaded blocks. -/
def outBlk (x0 : Vec F S4000x128 .f32) (x1 : Vec F S1x128x128 .f32) : Vec F S1x4000x128 .f32 :=
  View.canon [⟨ro, k0_pay1 (View.ld x0 rx) (View.ld x1 rw')⟩]

/-- That store covers the buffer. -/
theorem cover_out (p0 : Vec F S1x4000x128 .f32) (y : S1x4000x128.Idx) :
    ∃ pc ∈ ([⟨ro, p0⟩] : List (View.Piece (Elt F) S1x4000x128 .f32)), y ∈ pc.1.set :=
  View.cover_of_tiled [⟨ro, p0⟩] S1x4000x128.size (by rfl) y

/-! ## The body's triple -/

set_option maxHeartbeats 1000000 in
/-- The body on whole staging buffers — the inputs at known contents, the output at anything — runs to its end,
    leaving the inputs as they were and the output at `outBlk` of them. -/
theorem sound_kernel (c : Dev nD) (E : Set ℕ) (i : grid0.Coords) (arg2 : Memref sig .tc .vmem S4000x128 .f32) (harg2 : arg2.IsWhole)
    (arg3 : Memref sig .tc .vmem S1x128x128 .f32) (harg3 : arg3.IsWhole) (arg4 : Memref sig .tc .vmem S1x4000x128 .f32) (harg4 : arg4.IsWhole)
    (x0 : Vec F S4000x128 .f32) (x1 : Vec F S1x128x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlk x0 x1)) -∗ K ⟨⟩))
      ⊢ wp frame (wpE (defs₀ (F := F)) Variants.none c none) E (cc0__xw_kernel i arg2 harg2 arg3 harg3 arg4 harg4) K := by
  simp only [cc0__xw_kernel_eq_skeleton]; unfold cc0__xw_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The proof data of the region -/

/-- On core `c`: the arrays as launched; after the body at point `t` the two input buffers at their blocks and the
    output buffer at the product of the blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_o (c : Dev nD) (t : Fin cfg0.N) : (dats m 0 c).after 2 t = outBlk (iblk m c 0 t) (iblk m c 1 t) := by dsimp only [dats]

theorem before_x (c : Dev nD) (t : Fin cfg0.N) (d) : (dats m 0 c).before 0 t d = iblk m c 0 t :=
  before_x_of m (dats m 0 c) (A_eq m c 0) (after_x m c) t d
theorem before_w (c : Dev nD) (t : Fin cfg0.N) (d) : (dats m 0 c).before 1 t d = iblk m c 1 t :=
  before_w_of m (dats m 0 c) (A_eq m c 1) (after_w m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w]
  rw [show (dats m 0 c).Φ t.succ = (dats m 0 c).Φ t.castSucc from rfl,
    show (dats m 0 c).owesAt () t.succ = (dats m 0 c).owesAt () t.castSucc from rfl,
    after_x, after_w, after_o]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates without a fault; at the end
    the three staged arrays hold what the region's write-backs make of them, and every other unscoped buffer what
    the host lines after the region compute from those. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps_arr)
    (hmain := hmain m Variants.none) (hA := A_eq m) (hΦ := fun _ _ => rfl)

/-- The four argument arrays end as launched: x and W are staged inputs, which the region only reads; the edge
    list and the biases bypass the region, and no later line writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans (A_eq m c 0)),
     ((h c).2 main_arg1 (Pipeline.mem_restRefs_of main_arg1 (by decide) (by decide))).trans
       (tail_kept m (dats m) c main_arg1 (Or.inr (Or.inl rfl)) (by decide)),
     ((h c).1 1).trans (((dats m 0 c).arrAt_in 1 rfl _).trans (A_eq m c 1)),
     ((h c).2 main_arg3 (Pipeline.mem_restRefs_of main_arg3 (by decide) (by decide))).trans
       (tail_kept m (dats m) c main_arg3 (Or.inr (Or.inr (Or.inr (Or.inl rfl)))) (by decide))⟩) (run_main m ρ)

end Cert.Kernel.Fr

end
-- ==== Proof.KITail.lean ====
/-
  The host lines that follow the kernel region of this program, read as one block: seven stretches of
  StableHLO operations (the three graph convolutions' degree normalisation, gathers and scatter-adds, and the
  running sum with the biases).  What is shown here is only where they write: every operation writes its own
  result buffer, and none of those is one of the four argument arrays or the array x·W the region produced.
  Hence the arguments end as they were launched, and the region's array is read by the later lines as the
  region left it.
-/
import proofs.«168616_j62766652064043_1_alg».proof.Proof.Gen.KernelIdeal.Launch
import proofs.«168616_j62766652064043_1_alg».proof.Proof.Gen.KernelIdeal.Skeleton
import proofs.«168616_j62766652064043_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The lines after the region, stretch by stretch, in program order. -/
abbrev tailOps : List (List (HloOp τ sig (Elt F))) :=
  [hostOps1, hostOps1_1, hostOps1_2, hostOps1_3, hostOps1_4, hostOps1_5, hostOps1_6]

/-- The buffers of core `c` when the region is entered: nothing runs before it, so they are as launched. -/
abbrev V0 (c : Dev nD) : Valuation τ sig (Elt F) := StableHlo.after (List.flatten []) (fun b => m (c, b))
/-- The same, read at a reference. -/
abbrev V (c : Dev nD) (b : Ref sig .tc) : Buf (Elt F) ((c : Thread nD τ).loc b) := V0 m c (Proc.devRef .tc b)

/-! ## No line allocates -/

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

theorem tail_fresh : ∀ ops ∈ (tailOps : List (List (HloOp τ sig (Elt F)))), ∀ op ∈ ops, op.fresh = ∅ := by
  intro ops hops
  simp only [List.mem_cons, List.mem_nil_iff, or_false] at hops
  rcases hops with rfl | rfl | rfl | rfl | rfl | rfl | rfl
  · exact List.forall_iff_forall_mem.mp hostOps1_fresh
  · exact List.forall_iff_forall_mem.mp hostOps1_1_fresh
  · exact List.forall_iff_forall_mem.mp hostOps1_2_fresh
  · exact List.forall_iff_forall_mem.mp hostOps1_3_fresh
  · exact List.forall_iff_forall_mem.mp hostOps1_4_fresh
  · exact List.forall_iff_forall_mem.mp hostOps1_5_fresh
  · exact List.forall_iff_forall_mem.mp hostOps1_6_fresh

/-! ## Every line stays within the unscoped buffers -/

theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-! ## No line writes an argument array or the region's result array -/

/-- The five buffers the later lines only read: the arguments x, edges, W, b and the array x·W. -/
def Kept (r : Ref sig .tc) : Prop :=
  r = main_arg0 ∨ r = main_arg1 ∨ r = main_arg2 ∨ r = main_arg3 ∨ r = main_v0

theorem hostOps1_keeps : (hostOps1 : List (HloOp τ sig (Elt F))).Forall fun op => ∀ r, Kept r → Proc.devRef .tc r ∉ op.writes := by
  unfold Kept
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (rintro r (rfl | rfl | rfl | rfl | rfl) <;> exact StableHlo.devRef_ne_of_ne (by decide))
theorem hostOps1_1_keeps : (hostOps1_1 : List (HloOp τ sig (Elt F))).Forall fun op => ∀ r, Kept r → Proc.devRef .tc r ∉ op.writes := by
  unfold Kept
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (rintro r (rfl | rfl | rfl | rfl | rfl) <;> exact StableHlo.devRef_ne_of_ne (by decide))
theorem hostOps1_2_keeps : (hostOps1_2 : List (HloOp τ sig (Elt F))).Forall fun op => ∀ r, Kept r → Proc.devRef .tc r ∉ op.writes := by
  unfold Kept
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (rintro r (rfl | rfl | rfl | rfl | rfl) <;> exact StableHlo.devRef_ne_of_ne (by decide))
theorem hostOps1_3_keeps : (hostOps1_3 : List (HloOp τ sig (Elt F))).Forall fun op => ∀ r, Kept r → Proc.devRef .tc r ∉ op.writes := by
  unfold Kept
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (rintro r (rfl | rfl | rfl | rfl | rfl) <;> exact StableHlo.devRef_ne_of_ne (by decide))
theorem hostOps1_4_keeps : (hostOps1_4 : List (HloOp τ sig (Elt F))).Forall fun op => ∀ r, Kept r → Proc.devRef .tc r ∉ op.writes := by
  unfold Kept
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (rintro r (rfl | rfl | rfl | rfl | rfl) <;> exact StableHlo.devRef_ne_of_ne (by decide))
theorem hostOps1_5_keeps : (hostOps1_5 : List (HloOp τ sig (Elt F))).Forall fun op => ∀ r, Kept r → Proc.devRef .tc r ∉ op.writes := by
  unfold Kept
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (rintro r (rfl | rfl | rfl | rfl | rfl) <;> exact StableHlo.devRef_ne_of_ne (by decide))
theorem hostOps1_6_keeps : (hostOps1_6 : List (HloOp τ sig (Elt F))).Forall fun op => ∀ r, Kept r → Proc.devRef .tc r ∉ op.writes := by
  unfold Kept
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (rintro r (rfl | rfl | rfl | rfl | rfl) <;> exact StableHlo.devRef_ne_of_ne (by decide))

theorem tail_keeps : ∀ ops ∈ (tailOps : List (List (HloOp τ sig (Elt F)))), ∀ op ∈ ops,
    ∀ r, Kept r → Proc.devRef .tc r ∉ op.writes := by
  intro ops hops
  simp only [List.mem_cons, List.mem_nil_iff, or_false] at hops
  rcases hops with rfl | rfl | rfl | rfl | rfl | rfl | rfl
  · exact List.forall_iff_forall_mem.mp hostOps1_keeps
  · exact List.forall_iff_forall_mem.mp hostOps1_1_keeps
  · exact List.forall_iff_forall_mem.mp hostOps1_2_keeps
  · exact List.forall_iff_forall_mem.mp hostOps1_3_keeps
  · exact List.forall_iff_forall_mem.mp hostOps1_4_keeps
  · exact List.forall_iff_forall_mem.mp hostOps1_5_keeps
  · exact List.forall_iff_forall_mem.mp hostOps1_6_keeps

/-- The three arrays the region stages are among the five. -/
theorem kept_arr : ∀ w : Fin 3, Kept (Pipeline.arrRef spec0 w) := by
  unfold Kept; decide

theorem tail_keeps_arr : ∀ ops ∈ (tailOps : List (List (HloOp τ sig (Elt F)))), ∀ op ∈ ops,
    ∀ w, Proc.devRef .tc (Pipeline.arrRef spec0 w) ∉ op.writes :=
  fun ops hops op hop w => tail_keeps ops hops op hop _ (kept_arr w)

/-! ## @main is the region followed by those lines -/

theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by trivial) (by trivial) main_chain

/-- A kept buffer that is no array of the region holds, after all the lines, what it held at launch. -/
theorem tail_kept (dats : (p : Fin 1) → (c : Dev nD) → Dat τ (Elt F) Unit ℕ (UR sig nD τ) ℕ (cfgs p) c) (c : Dev nD)
    (r : Ref sig .tc) (hr : Kept r) (hne : ∀ w, Pipeline.arrRef spec0 w ≠ r) :
    Pipeline.afterTail₀ cfgs dats 0 (V0 m) tailOps c r = m ((c : Thread nD τ).loc r) := by
  unfold Pipeline.afterTail₀
  have hnw : ∀ op ∈ (tailOps (F := F)).flatten, Proc.devRef (τ := τ) .tc r ∉ op.writes := fun op hop => by
    obtain ⟨ops, hops, hop'⟩ := List.mem_flatten.mp hop
    exact tail_keeps ops hops op hop' r hr
  rw [StableHlo.after_of_forall_not_mem (b := Proc.devRef .tc r) _ _ hnw,
    Pipeline.withArrays_of_ne _ c (V0 m c) _ r hne]
  rfl

end Cert.KernelIdeal.Fr

end
-- ==== Proof.KIBody.lean ====
/-
  The kernel region of this program: a 3 × 25 grid; at the point (r, i) the body reads rows 4000·i … 4000·i + 3999
  of x (a 4000 × 128 block) and the whole 128 × 128 matrix W[r], multiplies them, and writes the product as block
  (r, i) of a 3 × 100000 × 128 array.  Shown here: the body run on its three staging buffers leaves the two inputs
  as found and the output buffer at the product of the two blocks; hence the whole program — the region, then the
  host lines that follow it — runs to the end from any memory, the three staged arrays ending at what the blocks
  written back make of them and every other buffer at what the host lines compute; in particular the four
  argument arrays end unchanged.
-/
import proofs.«168616_j62766652064043_1_alg».proof.Proof.KITail

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at grid point `t`, read off its array as launched. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The x-window's staging buffer holds the point's block of x whenever the body runs: an input is either
    fetched at the point, or its block index has not moved since the point before. -/
theorem before_x_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the W-window, which is fetched only when the relation index changes. -/
theorem before_w_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output buffer -/

/-- The three rectangles the body accesses: each is its buffer whole. -/
abbrev rx : Rect S4000x128 := Rect.unit (s := S4000x128) ![0, 0] S4000x128.size inb_S4000x128_S4000x128_0_0
abbrev rw' : Rect S1x128x128 := Rect.unit (s := S1x128x128) ![0, 0, 0] S1x128x128.size inb_S1x128x128_S1x128x128_0_0_0
abbrev ro : Rect S1x4000x128 := Rect.unit (s := S1x4000x128) ![0, 0, 0] S1x4000x128.size inb_S1x4000x128_S1x4000x128_0_0_0

/-- The output buffer after the body: its one store, of the product of the two loaded blocks. -/
def outBlk (x0 : Vec F S4000x128 .f32) (x1 : Vec F S1x128x128 .f32) : Vec F S1x4000x128 .f32 :=
  View.canon [⟨ro, k0_pay1 (View.ld x0 rx) (View.ld x1 rw')⟩]

/-- That store covers the buffer. -/
theorem cover_out (p0 : Vec F S1x4000x128 .f32) (y : S1x4000x128.Idx) :
    ∃ pc ∈ ([⟨ro, p0⟩] : List (View.Piece (Elt F) S1x4000x128 .f32)), y ∈ pc.1.set :=
  View.cover_of_tiled [⟨ro, p0⟩] S1x4000x128.size (by rfl) y

/-! ## The body's triple -/

set_option maxHeartbeats 1000000 in
/-- The body on whole staging buffers — the inputs at known contents, the output at anything — runs to its end,
    leaving the inputs as they were and the output at `outBlk` of them. -/
theorem sound_kernel (c : Dev nD) (E : Set ℕ) (i : grid0.Coords) (arg2 : Memref sig .tc .vmem S4000x128 .f32) (harg2 : arg2.IsWhole)
    (arg3 : Memref sig .tc .vmem S1x128x128 .f32) (harg3 : arg3.IsWhole) (arg4 : Memref sig .tc .vmem S1x4000x128 .f32) (harg4 : arg4.IsWhole)
    (x0 : Vec F S4000x128 .f32) (x1 : Vec F S1x128x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlk x0 x1)) -∗ K ⟨⟩))
      ⊢ wp frame (wpE (defs₀ (F := F)) Variants.none c none) E (cc0__xw_kernel i arg2 harg2 arg3 harg3 arg4 harg4) K := by
  simp only [cc0__xw_kernel_eq_skeleton]; unfold cc0__xw_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The proof data of the region -/

/-- On core `c`: the arrays as launched; after the body at point `t` the two input buffers at their blocks and the
    output buffer at the product of the blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_o (c : Dev nD) (t : Fin cfg0.N) : (dats m 0 c).after 2 t = outBlk (iblk m c 0 t) (iblk m c 1 t) := by dsimp only [dats]

theorem before_x (c : Dev nD) (t : Fin cfg0.N) (d) : (dats m 0 c).before 0 t d = iblk m c 0 t :=
  before_x_of m (dats m 0 c) (A_eq m c 0) (after_x m c) t d
theorem before_w (c : Dev nD) (t : Fin cfg0.N) (d) : (dats m 0 c).before 1 t d = iblk m c 1 t :=
  before_w_of m (dats m 0 c) (A_eq m c 1) (after_w m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w]
  rw [show (dats m 0 c).Φ t.succ = (dats m 0 c).Φ t.castSucc from rfl,
    show (dats m 0 c).owesAt () t.succ = (dats m 0 c).owesAt () t.castSucc from rfl,
    after_x, after_w, after_o]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates without a fault; at the end
    the three staged arrays hold what the region's write-backs make of them, and every other unscoped buffer what
    the host lines after the region compute from those. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps_arr)
    (hmain := hmain m Variants.none) (hA := A_eq m) (hΦ := fun _ _ => rfl)

/-- The four argument arrays end as launched: x and W are staged inputs, which the region only reads; the edge
    list and the biases bypass the region, and no later line writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans (A_eq m c 0)),
     ((h c).2 main_arg1 (Pipeline.mem_restRefs_of main_arg1 (by decide) (by decide))).trans
       (tail_kept m (dats m) c main_arg1 (Or.inr (Or.inl rfl)) (by decide)),
     ((h c).1 1).trans (((dats m 0 c).arrAt_in 1 rfl _).trans (A_eq m c 1)),
     ((h c).2 main_arg3 (Pipeline.mem_restRefs_of main_arg3 (by decide) (by decide))).trans
       (tail_kept m (dats m) c main_arg3 (Or.inr (Or.inr (Or.inr (Or.inl rfl)))) (by decide))⟩) (run_main m ρ)

end Cert.KernelIdeal.Fr

end
-- ==== Proof.LibPlainDot.lean ====
/-
  A PLAIN MATRIX PRODUCT'S CONTRACTION AS A SUM OVER ITS INNER EXTENT.

  For dimension numbers of a product of an [M, K] matrix with a [K, N] matrix into [M, N] — one contracted axis, the
  left operand's second against the right operand's first, no batch axis — the contraction ranges over a rank-one
  index type of extent K. Whenever the record's operand indices at result entry (r, c) and contraction position k are
  (r, k) and (k, c) (four coordinate equations, each `rfl` for a record with literal axis lists), the contraction
      ∑ k, lhs (lhsIdx (r, c) k) * rhs (rhsIdx (r, c) k)
  is ∑ k : Fin K, lhs (r, k) * rhs (k, c). Both a vector unit's product into a zero accumulator and a host
  dot_general read as that contraction at the exact instance, so both are this sum.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The contraction of a plain product at entry `(r, c)`, re-indexed by the one contraction coordinate. -/
theorem contraction_eq_sum {M K N : Nat} (d : DotDims ⟨2, ![M, K]⟩ ⟨2, ![K, N]⟩ ⟨2, ![M, N]⟩)
    (hr : d.contr.rank = 1) (hs : d.contr.size ⟨0, by omega⟩ = K)
    (h1 : ∀ (j : (⟨2, ![M, N]⟩ : Shape).Idx) (k : d.contr.Idx), (d.lhsIdx j k 0).val = (j 0).val)
    (h2 : ∀ (j : (⟨2, ![M, N]⟩ : Shape).Idx) (k : d.contr.Idx), (d.lhsIdx j k 1).val = (k ⟨0, by omega⟩).val)
    (h3 : ∀ (j : (⟨2, ![M, N]⟩ : Shape).Idx) (k : d.contr.Idx), (d.rhsIdx j k 0).val = (k ⟨0, by omega⟩).val)
    (h4 : ∀ (j : (⟨2, ![M, N]⟩ : Shape).Idx) (k : d.contr.Idx), (d.rhsIdx j k 1).val = (j 1).val)
    (lhs : (⟨2, ![M, K]⟩ : Shape).Idx → EReal) (rhs : (⟨2, ![K, N]⟩ : Shape).Idx → EReal) (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hr hs).symm]
  refine Finset.sum_congr rfl fun k _ => ?_
  have el : d.lhsIdx (ix2 r c) ((contrEquiv1 d K hr hs).symm k) = ix2 r k := by
    funext a
    refine Fin.ext ?_
    match a with
    | ⟨0, _⟩ => exact h1 _ _
    | ⟨1, _⟩ => exact (h2 _ _).trans (contrEquiv1_symm_val d K hr hs k)
  have er : d.rhsIdx (ix2 r c) ((contrEquiv1 d K hr hs).symm k) = ix2 k c := by
    funext a
    refine Fin.ext ?_
    match a with
    | ⟨0, _⟩ => exact (h3 _ _).trans (contrEquiv1_symm_val d K hr hs k)
    | ⟨1, _⟩ => exact h4 _ _
  rw [el, er]

end Idealize.ShloMosaic.PlainDot

end
-- ==== Proof.KIValue.lean ====
/-
  What the kernel region leaves in its 3 × 100000 × 128 array, at the exact instance: entry (r, n, j) is the inner
  product of row n of x with column j of W[r],   ∑ₖ x[n, k] · W[r, k, j].
  The point (r, i) of the grid multiplies rows 4000·i … 4000·i + 3999 of x by W[r] and writes the product back as block
  (r, i, 0); rounding the operands to bf16 first changes nothing over the extended reals.  Every entry lies in exactly
  the block of the point (r, n / 4000), so the written-back blocks make up the whole array.
-/
import proofs.«168616_j62766652064043_1_alg».proof.Proof.KIBody
import proofs.«168616_j62766652064043_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-- The projected features for the three relations at once: `xwAll x W (r, n, j) = ∑ₖ x (n, k) · W (r, k, j)`. -/
def xwAll (x : FVec Ideal S100000x128 .f32) (W : FVec Ideal S3x128x128 .f32) : FVec Ideal S3x100000x128 .f32 :=
  fun i => ∑ k : Fin 128, x (ix2 (n0 := 100000) (n1 := 128) ⟨(i 1).val, (i 1).isLt⟩ k)
    * W (ix3 (n0 := 3) (n1 := 128) (n2 := 128) ⟨(i 0).val, (i 0).isLt⟩ k ⟨(i 2).val, (i 2).isLt⟩)

/-! ## The body's product at an entry -/

theorem dot_l0 (i : S4000x128.Idx) (q : dot_S4000x128_S128x128_S4000x128_1_0_0_1_n_n.contr.Idx) : (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem dot_l1 (i : S4000x128.Idx) (q : dot_S4000x128_S128x128_S4000x128_1_0_0_1_n_n.contr.Idx) : (dot_S4000x128_S128x128_S4000x128_1_0_0_1_n_n.lhsIdx i q 1).val = (q ⟨0, by decide⟩).val :=
  dot_S4000x128_S128x128_S4000x128_1_0_0_1_n_n.lhsIdx_val_of_single rfl i q
theorem dot_r0 (i : S4000x128.Idx) (q : dot_S4000x128_S128x128_S4000x128_1_0_0_1_n_n.contr.Idx) : (dot_S4000x128_S128x128_S4000x128_1_0_0_1_n_n.rhsIdx i q 0).val = (q ⟨0, by decide⟩).val :=
  dot_S4000x128_S128x128_S4000x128_1_0_0_1_n_n.rhsIdx_val_of_single rfl i q
theorem dot_r1 (i : S4000x128.Idx) (q : dot_S4000x128_S128x128_S4000x128_1_0_0_1_n_n.contr.Idx) : (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The stored block at row `p`, column `j`: row `p` of the x-block against column `j` of the W-block. -/
theorem pay_apply (x0 : Vec Ideal S4000x128 .f32) (x1 : Vec Ideal S1x128x128 .f32) (p : Fin 4000) (j : Fin 128) :
    k0_pay1 x0 x1 (ix3 (0 : Fin 1) p j) = ∑ k : Fin 128, x0 (ix2 p k) * x1 (ix3 (0 : Fin 1) k j) := by
  unfold k0_pay1
  refine (shapeCast_apply _ shapeCasts_S4000x128_S1x4000x128 (ix3 (0 : Fin 1) p j) (ix2 p j) ?_).trans ?_
  · rewrite [Shape.rowMajor_val_two, Shape.rowMajor_val_three]
    show p.val * 128 + j.val = (0 * 4000 + p.val) * 128 + j.val
    omega
  refine (Ideal.matmul_constant_zero_apply dot_S4000x128_S128x128_S4000x128_1_0_0_1_n_n none _ _ (ix2 p j)).trans ?_
  refine (PlainDot.contraction_eq_sum dot_S4000x128_S128x128_S4000x128_1_0_0_1_n_n rfl rfl dot_l0 dot_l1 dot_r0 dot_r1 _ _ p j).trans ?_
  refine Finset.sum_congr rfl fun k _ => ?_
  show x0 (ix2 p k) * (shapeCast S128x128 x1 shapeCasts_S1x128x128_S128x128) (ix2 k j) = _
  refine congrArg (x0 (ix2 p k) * ·) ?_
  refine shapeCast_apply x1 shapeCasts_S1x128x128_S128x128 (ix2 k j) (ix3 (0 : Fin 1) k j) ?_
  rewrite [Shape.rowMajor_val_three, Shape.rowMajor_val_two]
  show (0 * 128 + k.val) * 128 + j.val = k.val * 128 + j.val
  omega

/-! ## The blocks of a grid point -/

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 75 points: the x-block moves with the output block's row index, the
    W-block with its relation index; every other block index is 0. -/
theorem idx_facts : ∀ t : Fin cfg0.N, win0_0.index t (0 : Fin 2) = win0_2.index t (1 : Fin 3)
    ∧ win0_0.index t (1 : Fin 2) = 0
    ∧ win0_1.index t (0 : Fin 3) = win0_2.index t (0 : Fin 3)
    ∧ win0_1.index t (1 : Fin 3) = 0
    ∧ win0_1.index t (2 : Fin 3) = 0
    ∧ win0_2.index t (2 : Fin 3) = 0
    ∧ win0_2.index t (0 : Fin 3) ≤ 2
    ∧ win0_2.index t (1 : Fin 3) ≤ 24 :=
  (by decide +kernel : ∀ t : Fin grid0.N, _)

/-- Every (relation, row-block) pair is some point's. -/
theorem idx_onto : ∀ (q0 : Fin 3) (q1 : Fin 25), ∃ t : Fin cfg0.N, win0_2.index t = ![q0.val, q1.val, 0] :=
  (by decide +kernel : ∀ (q0 : Fin 3) (q1 : Fin 25), ∃ t : Fin grid0.N, win0_2.index t = ![q0.val, q1.val, 0])

/-- The x-block of point `t` is 4000 consecutive rows of x, starting at 4000 times the output block's row index. -/
theorem xblk_apply (c : Dev nD) (t : Fin cfg0.N) (y : S4000x128.Idx) (k : S100000x128.Idx)
    (hk0 : (k 0).val = win0_2.index t (1 : Fin 3) * 4000 + (y 0).val) (hk1 : (k 1).val = (y 1).val) :
    (iblk m c 0 t : Vec Ideal S4000x128 .f32) y = (m ((c : Thread nD τ).loc main_arg0) : FVec Ideal S100000x128 .f32) k := by
  obtain ⟨e0, e1, -⟩ := idx_facts t
  unfold iblk
  rw [View.read_apply]
  show (m ((c : Thread nD τ).loc main_arg0) : FVec Ideal S100000x128 .f32) _ = _
  refine congrArg _ (funext fun a => Fin.ext ?_)
  match a with
  | ⟨0, _⟩ => show win0_0.index t (0 : Fin 2) * 4000 + 1 * (y 0).val = (k 0).val; rw [e0, hk0]; omega
  | ⟨1, _⟩ => show win0_0.index t (1 : Fin 2) * 128 + 1 * (y 1).val = (k 1).val; rw [e1, hk1]; omega

/-- The W-block of point `t` is the whole matrix of the output block's relation. -/
theorem wblk_apply (c : Dev nD) (t : Fin cfg0.N) (y : S1x128x128.Idx) (k : S3x128x128.Idx)
    (hk0 : (k 0).val = win0_2.index t (0 : Fin 3) + (y 0).val) (hk1 : (k 1).val = (y 1).val) (hk2 : (k 2).val = (y 2).val) :
    (iblk m c 1 t : Vec Ideal S1x128x128 .f32) y = (m ((c : Thread nD τ).loc main_arg2) : FVec Ideal S3x128x128 .f32) k := by
  obtain ⟨-, -, e2, e3, e4, -⟩ := idx_facts t
  unfold iblk
  rw [View.read_apply]
  show (m ((c : Thread nD τ).loc main_arg2) : FVec Ideal S3x128x128 .f32) _ = _
  refine congrArg _ (funext fun a => Fin.ext ?_)
  match a with
  | ⟨0, _⟩ => show win0_1.index t (0 : Fin 3) * 1 + 1 * (y 0).val = (k 0).val; rw [e2, hk0]; omega
  | ⟨1, _⟩ => show win0_1.index t (1 : Fin 3) * 128 + 1 * (y 1).val = (k 1).val; rw [e3, hk1]; omega
  | ⟨2, _⟩ => show win0_1.index t (2 : Fin 3) * 128 + 1 * (y 2).val = (k 2).val; rw [e4, hk2]; omega

/-! ## What a point writes back, and the whole array -/

/-- Point `t` writes back block `t` of `xwAll x W`. -/
theorem flushed_eq (c : Dev nD) (t : Fin cfg0.N) :
    (dats m 0 c).flushed 2 t = ((cfg0.win 2).blk t).view.read (Elt Ideal)
      (xwAll (m ((c : Thread nD τ).loc main_arg0)) (m ((c : Thread nD τ).loc main_arg2))) := by
  show (cfg0.win 2).cut (grid0.coords t) ((dats m 0 c).after 2 t) = _
  rw [after_o]
  unfold outBlk
  rw [View.canon_unit_zero hz3]
  simp only [View.ld_unit_zero (S := S4000x128) hz2, View.ld_unit_zero (S := S1x128x128) hz3]
  funext y
  obtain ⟨z, p, j, rfl⟩ : ∃ (z : Fin 1) (p : Fin 4000) (j : Fin 128), y = ix3 z p j := ⟨y 0, y 1, y 2, eq_ix3 y⟩
  obtain rfl : z = 0 := Subsingleton.elim _ _
  show k0_pay1 (iblk m c 0 t) (iblk m c 1 t) (ix3 (0 : Fin 1) p j) = _
  refine (pay_apply (iblk m c 0 t) (iblk m c 1 t) p j).trans ?_
  rw [View.read_apply]
  unfold xwAll
  refine Finset.sum_congr rfl fun k _ => ?_
  refine congrArg₂ (· * ·) (xblk_apply m c t (ix2 p k) _ ?_ ?_) (wblk_apply m c t (ix3 (0 : Fin 1) k j) _ ?_ ?_ ?_)
  · show win0_2.index t (1 : Fin 3) * 4000 + 1 * p.val = win0_2.index t (1 : Fin 3) * 4000 + p.val; omega
  · rfl
  · show win0_2.index t (0 : Fin 3) * 1 + 1 * 0 = win0_2.index t (0 : Fin 3) + 0; omega
  · rfl
  · obtain ⟨-, -, -, -, -, e5, -⟩ := idx_facts t
    show win0_2.index t (2 : Fin 3) * 128 + 1 * j.val = j.val; rw [e5]; omega

/-- An entry is in point `t`'s block iff each coordinate is in the block's range on its axis. -/
theorem mem_blk (t : Fin cfg0.N) (i : S3x100000x128.Idx) :
    i ∈ ((cfg0.win 2).blk t).view.set ↔ ∀ a : Fin 3, win0_2.index t a * S1x4000x128.size a ≤ (i a).val ∧ (i a).val < win0_2.index t a * S1x4000x128.size a + S1x4000x128.size a := by
  show i ∈ ((View.whole main_v0).slice (win0_2.rect t)).set ↔ _
  rw [View.set_slice_whole, Rect.mem_set_unit]
  exact Iff.rfl

/-- Entry (r, n, j) lies in the block of the point (r, n / 4000). -/
theorem cover (i : S3x100000x128.Idx) :
    ∃ t : Fin cfg0.N, (cfg0.win 2).flush t = true ∧ i ∈ ((cfg0.win 2).blk t).view.set := by
  have hi0 : (i 0).val < 3 := (i 0).isLt
  have hi1 : (i 1).val < 100000 := (i 1).isLt
  have hi2 : (i 2).val < 128 := (i 2).isLt
  obtain ⟨t, ht⟩ := idx_onto ⟨(i 0).val, hi0⟩ ⟨(i 1).val / 4000, by omega⟩
  have q0 : win0_2.index t (0 : Fin 3) = (i 0).val := congrFun ht 0
  have q1 : win0_2.index t (1 : Fin 3) = (i 1).val / 4000 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 4000 ≤ (i 1).val ∧ (i 1).val < win0_2.index t (1 : Fin 3) * 4000 + 4000; omega
  | ⟨2, _⟩ => show win0_2.index t (2 : Fin 3) * 128 ≤ (i 2).val ∧ (i 2).val < win0_2.index t (2 : Fin 3) * 128 + 128; omega

/-- The array after the region is `xwAll x W`. -/
theorem final (c : Dev nD) : (dats m 0 c).arrAt 2 cfg0.N
    = xwAll (m ((c : Thread nD τ).loc main_arg0)) (m ((c : Thread nD τ).loc main_arg2)) :=
  (dats m 0 c).arrAt_eq_of_cover 2 _ (fun t _ => flushed_eq m c t) cover

end Cert.KernelIdeal.Fr

end
-- ==== Proof.ConvSpec.lean ====
/-
  One graph convolution's message passing, as ONE function of the projected features xw = x·W[r] (100000 × 128) and of
  the relation's edge list ei (2 × 800000):

      src  = ei[0] ++ (0, 1, …, 99999),   dst = ei[1] ++ (0, 1, …, 99999)          (a self-loop per node)
      deg  = the segment sum of ones over dst
      dis  = deg^(-1/2) where deg > 0, and 0 elsewhere                              (deg floored at 1e-12 first)
      norm = dis[src] · dis[dst]
      agg  = the segment sum over dst of xw[src] · norm                             (row-wise)

  with a negative index wrapped by +100000, as jnp's indexing does.  The kernel's host lines and the reference run exactly
  these operations for each of the three relations; the two programs differ only in where xw comes from (a slice of the
  kernel region's 3 × 100000 × 128 array, against a host matrix product) and in how the three aggregates and the three
  bias rows are added up: ((((((0 + a₀) + b₀) + a₁) + b₁) + a₂) + b₂) against ((0 + (a₀ + b₀)) + (a₁ + b₁)) + (a₂ + b₂).
  Nothing here opens the gather or the segment sums: they are the same function on both sides.
-/
import proofs.«168616_j62766652064043_1_alg».proof.ReferenceIdeal
import proofs.«168616_j62766652064043_1_alg».proof.Proof.Gen.ReferenceIdeal
import Idealize.ShloMosaic.PureOps.Ideal
import Idealize.ShloMosaic.Lib.ValueIdx

noncomputable section

namespace Cert.ReferenceIdeal.Conv

open Cert.ReferenceIdeal Cert.ReferenceIdeal.Gen Idealize.ShloMosaic

variable {F : FTy → Type} [FloatOps F]

/-- The numbers 0 … 99999: the self-loops' endpoints. -/
abbrev loops : IVec S100000 32 := iotaInDim S100000 32 0

/-- Row `k` (0 = sources, 1 = targets) of an edge list, followed by the self-loops. -/
abbrev endpoints (k : Nat) (h : S2x800000.Slices ![k, 0] S1x800000) (ei : IVec S2x800000 32) : IVec S900000 32 :=
  concatenate S900000 0 [⟨S800000, (shapeCast _ (extractStridedSlice S1x800000 ![k, 0] ei h) shapeCasts_S1x800000_S800000)⟩, ⟨S100000, loops⟩] concatenates_S800000_S100000_S900000_d0

abbrev src (ei : IVec S2x800000 32) : IVec S900000 32 := endpoints 0 slices_S2x800000_S1x800000_0_0 ei
abbrev dst (ei : IVec S2x800000 32) : IVec S900000 32 := endpoints 1 slices_S2x800000_S1x800000_1_0 ei

/-- A negative index counts from the end. -/
abbrev wrap (v : IVec S900000 32) : IVec S900000 32 :=
  select (cmpi .slt v (broadcastInDim S900000 ![] bcast_S_S900000 (constantI S_ 32 0#32))) (addi v (broadcastInDim S900000 ![] bcast_S_S900000 (constantI S_ 32 100000#32))) v

/-- An index vector as the one-column matrix a gather or scatter takes. -/
abbrev col (v : IVec S900000 32) : IVec S900000x1 32 := broadcastInDim S900000x1 ![0] bcast_S900000_S900000x1_0 v

/-- The in-degree of every node, self-loop included. -/
abbrev deg (ei : IVec S2x800000 32) : FVec F S100000 .f32 :=
  Host.scatterAdd scatter_S100000_S900000x1_S900000_n_0_0_1 (broadcastInDim S100000 ![] bcast_S_S100000 (constant S_ .f32 0x00000000#32)) (col (dst ei)) (broadcastInDim S900000 ![] bcast_S_S900000 (constant S_ .f32 0x3F800000#32))

/-- deg^(-1/2) where the degree is positive, 0 elsewhere. -/
abbrev dis (ei : IVec S2x800000 32) : FVec F S100000 .f32 :=
  select (cmpf (F := F) .ogt (deg ei) (broadcastInDim S100000 ![] bcast_S_S100000 (constant S_ .f32 0x00000000#32)))
    (Host.rsqrt (maximumf (deg ei) (broadcastInDim S100000 ![] bcast_S_S100000 (constant S_ .f32 0x2B8CBCCC#32))))
    (broadcastInDim S100000 ![] bcast_S_S100000 (id (constant S_ .f32 0x00000000#32)))

/-- The symmetric normalisation of every edge. -/
abbrev norm (ei : IVec S2x800000 32) : FVec F S900000 .f32 :=
  mulf (Host.gather gather_S100000_S900000x1_S900000_n_0_n_n_0_1_1 (dis ei) (col (wrap (src ei))))
    (Host.gather gather_S100000_S900000x1_S900000_n_0_n_n_0_1_1 (dis ei) (col (wrap (dst ei))))

/-- The aggregate: every node's sum, over its incoming edges, of the source's projected row times the edge's
    normalisation. -/
def agg (xw : FVec F S100000x128 .f32) (ei : IVec S2x800000 32) : FVec F S100000x128 .f32 :=
  Host.scatterAdd scatter_S100000x128_S900000x1_S900000x128_1_0_0_1 (broadcastInDim S100000x128 ![] bcast_S_S100000x128 (constant S_ .f32 0x00000000#32))
    (col (dst ei))
    (mulf (Host.gather gather_S100000x128_S900000x1_S900000x128_1_0_n_n_0_1_1128 xw (col (wrap (src ei))))
      (broadcastInDim S900000x128 ![0, 1] bcast_S900000x1_S900000x128_0_1 (broadcastInDim S900000x1 ![0] bcast_S900000_S900000x1_0 (norm ei))))

/-- Relation `k`'s edge list. -/
abbrev edgesOf (k : Nat) (h : S3x2x800000.Slices ![k, 0, 0] S1x2x800000) (e : IVec S3x2x800000 32) : IVec S2x800000 32 :=
  shapeCast _ (extractStridedSlice S1x2x800000 ![k, 0, 0] e h) shapeCasts_S1x2x800000_S2x800000

/-- Relation `k`'s bias row, repeated down the 100000 nodes. -/
abbrev biasOf (k : Nat) (h : S3x128.Slices ![k, 0] S1x128) (b : FVec F S3x128 .f32) : FVec F S100000x128 .f32 :=
  broadcastInDim S100000x128 ![0, 1] bcast_S1x128_S100000x128_0_1 (broadcastInDim S1x128 ![1] bcast_S128_S1x128_1 (shapeCast _ (extractStridedSlice S1x128 ![k, 0] b h) shapeCasts_S1x128_S128))

/-- Relation `k`'s weight matrix, and the reference's projection x·W[k]. -/
abbrev weightOf (k : Nat) (h : S3x128x128.Slices ![k, 0, 0] S1x128x128) (W : FVec F S3x128x128 .f32) : FVec F S128x128 .f32 :=
  shapeCast _ (extractStridedSlice S1x128x128 ![k, 0, 0] W h) shapeCasts_S1x128x128_S128x128
abbrev projOf (k : Nat) (h : S3x128x128.Slices ![k, 0, 0] S1x128x128) (x : FVec F S100000x128 .f32) (W : FVec F S3x128x128 .f32) : FVec F S100000x128 .f32 :=
  Host.dotGeneral dot_S100000x128_S128x128_S100000x128_1_0_0_1_n_n none x (weightOf k h W)

/-- The all-zero 100000 × 128 array both sums start from. -/
abbrev zeros : FVec F S100000x128 .f32 := broadcastInDim S100000x128 ![] bcast_S_S100000x128 (constant S_ .f32 0x00000000#32)

/-- The reference's result: the three relations' (aggregate + bias), added to zero one after the other. -/
def refResult (x : FVec F S100000x128 .f32) (e : IVec S3x2x800000 32) (W : FVec F S3x128x128 .f32) (b : FVec F S3x128 .f32) : FVec F S100000x128 .f32 :=
  addf (addf (addf zeros
    (addf (agg (projOf 0 slices_S3x128x128_S1x128x128_0_0_0 x W) (edgesOf 0 slices_S3x2x800000_S1x2x800000_0_0_0 e)) (biasOf 0 slices_S3x128_S1x128_0_0 b)))
    (addf (agg (projOf 1 slices_S3x128x128_S1x128x128_1_0_0 x W) (edgesOf 1 slices_S3x2x800000_S1x2x800000_1_0_0 e)) (biasOf 1 slices_S3x128_S1x128_1_0 b)))
    (addf (agg (projOf 2 slices_S3x128x128_S1x128x128_2_0_0 x W) (edgesOf 2 slices_S3x2x800000_S1x2x800000_2_0_0 e)) (biasOf 2 slices_S3x128_S1x128_2_0 b))

/-- The kernel's host lines' result, from the three projections `p₀, p₁, p₂` they are handed: aggregate and bias added in
    turn to the running sum. -/
def kerResult (p0 p1 p2 : FVec F S100000x128 .f32) (e : IVec S3x2x800000 32) (b : FVec F S3x128 .f32) : FVec F S100000x128 .f32 :=
  addf (addf (addf (addf (addf (addf zeros
    (agg p0 (edgesOf 0 slices_S3x2x800000_S1x2x800000_0_0_0 e))) (biasOf 0 slices_S3x128_S1x128_0_0 b))
    (agg p1 (edgesOf 1 slices_S3x2x800000_S1x2x800000_1_0_0 e))) (biasOf 1 slices_S3x128_S1x128_1_0 b))
    (agg p2 (edgesOf 2 slices_S3x2x800000_S1x2x800000_2_0_0 e))) (biasOf 2 slices_S3x128_S1x128_2_0 b)

/-- Seven arrays added entry by entry, in the kernel's grouping and in the reference's: addition of extended reals is
    associative. -/
theorem sum_assoc {s : Shape} (z a0 b0 a1 b1 a2 b2 : FVec Ideal s .f32) :
    addf (addf (addf (addf (addf (addf z a0) b0) a1) b1) a2) b2 = addf (addf (addf z (addf a0 b0)) (addf a1 b1)) (addf a2 b2) := by
  funext i
  simp only [ValueIdx.addf_apply, add_assoc]

/-- So the two ways of adding up agree once the projections do. -/
theorem kerResult_eq_refResult (x : FVec Ideal S100000x128 .f32) (e : IVec S3x2x800000 32) (W : FVec Ideal S3x128x128 .f32) (b : FVec Ideal S3x128 .f32) :
    kerResult (F := Ideal) (projOf 0 slices_S3x128x128_S1x128x128_0_0_0 x W) (projOf 1 slices_S3x128x128_S1x128x128_1_0_0 x W)
      (projOf 2 slices_S3x128x128_S1x128x128_2_0_0 x W) e b = refResult (F := Ideal) x e W b := by
  unfold kerResult refResult
  exact sum_assoc _ _ _ _ _ _ _

end Cert.ReferenceIdeal.Conv

end
-- ==== Proof.KITerm.lean ====
/-
  What the host lines after the region compute, read as one term.  They slice the region's 3 × 100000 × 128 array into
  the three relations' projected features, run each relation's message passing on its edge list, and add the three
  aggregates and the three bias rows to zero in turn.  Here that composition of the 207 printed operations is identified
  with the specification's `kerResult` of the region's array, the edge lists and the biases.
-/
import proofs.«168616_j62766652064043_1_alg».proof.Proof.KIBody
import proofs.«168616_j62766652064043_1_alg».proof.Proof.ConvSpec

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable {F : FTy → Type} [FloatOps F]
variable (m : (ℓ : Loc nD τ sig) → Buf (Elt F) ℓ)

/-- Relation `k`'s slab of the region's array, as a 100000 × 128 matrix. -/
abbrev slab (k : Nat) (h : S3x100000x128.Slices ![k, 0, 0] S1x100000x128) (a : FVec F S3x100000x128 .f32) : FVec F S100000x128 .f32 :=
  shapeCast _ (extractStridedSlice S1x100000x128 ![k, 0, 0] a h) shapeCasts_S1x100000x128_S100000x128

set_option maxHeartbeats 200000000 in
/-- From ANY buffer contents `W₀` at the region's exit: the result buffer after all the lines is `kerResult` of the three
    slabs of the region's array, the edge lists and the biases as `W₀` holds them. -/
theorem tail_term (W₀ : Valuation τ sig (Elt F)) :
    StableHlo.after (tailOps (F := F)).flatten W₀ (Proc.devRef .tc main_v164)
      = Cert.ReferenceIdeal.Conv.kerResult (F := F)
          (slab 0 slices_S3x100000x128_S1x100000x128_0_0_0 (W₀ (Proc.devRef .tc main_v0)))
          (slab 1 slices_S3x100000x128_S1x100000x128_1_0_0 (W₀ (Proc.devRef .tc main_v0)))
          (slab 2 slices_S3x100000x128_S1x100000x128_2_0_0 (W₀ (Proc.devRef .tc main_v0)))
          (W₀ (Proc.devRef .tc main_arg1)) (W₀ (Proc.devRef .tc main_arg3)) := by
  simp only [tailOps, hostOps1, hostOps1_1, hostOps1_2, hostOps1_3, hostOps1_4, hostOps1_5, hostOps1_6, List.flatten_cons, List.flatten_nil, List.append_nil, List.cons_append, List.nil_append]
  after_results_simp <;> rfl

/-- The program's result buffer after all the lines. -/
theorem tail_result (c : Dev nD) :
    Pipeline.afterTail₀ cfgs (dats m) 0 (V0 m) tailOps c main_v164
      = Cert.ReferenceIdeal.Conv.kerResult (F := F)
          (slab 0 slices_S3x100000x128_S1x100000x128_0_0_0 ((dats m 0 c).arrAt 2 cfg0.N))
          (slab 1 slices_S3x100000x128_S1x100000x128_1_0_0 ((dats m 0 c).arrAt 2 cfg0.N))
          (slab 2 slices_S3x100000x128_S1x100000x128_2_0_0 ((dats m 0 c).arrAt 2 cfg0.N))
          (m ((c : Thread nD τ).loc main_arg1)) (m ((c : Thread nD τ).loc main_arg3)) := by
  unfold Pipeline.afterTail₀
  have e0 : Pipeline.withArrays spec0 c (V0 m c) (fun w => (dats m 0 c).arrAt w cfg0.N) (Proc.devRef .tc main_v0)
      = (dats m 0 c).arrAt 2 cfg0.N :=
    Pipeline.withArrays_arr spec0 launch0.win.arr_inj c (V0 m c) (fun w => (dats m 0 c).arrAt w cfg0.N) 2
  have e1 := Pipeline.withArrays_of_ne spec0 c (V0 m c) (fun w => (dats m 0 c).arrAt w cfg0.N) main_arg1 (by decide)
  have e3 := Pipeline.withArrays_of_ne spec0 c (V0 m c) (fun w => (dats m 0 c).arrAt w cfg0.N) main_arg3 (by decide)
  refine (tail_term (Pipeline.withArrays spec0 c (V0 m c) (fun w => (dats m 0 c).arrAt w cfg0.N))).trans ?_
  rw [e0, e1, e3]
  rfl

end Cert.KernelIdeal.Fr

end
-- ==== Proof.Bridge.lean ====
/-
  The bridge between the two programs' projections.  Relation `k`'s slab of the kernel region's array is, entry by
  entry, row n of x against column j of W[k]; the reference's host matrix product x·W[k] is the same sum.  With
  that, and the associativity of the final additions, the kernel's result is the reference's.
-/
import proofs.«168616_j62766652064043_1_alg».proof.Proof.KIValue
import proofs.«168616_j62766652064043_1_alg».proof.Proof.KITerm
import proofs.«168616_j62766652064043_1_alg».proof.Proof.ConvSpec
import proofs.«168616_j62766652064043_1_alg».proof.Proof.LibPlainDot

set_option maxRecDepth 16384

noncomputable section

open scoped BigOperators

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The reference's product at an entry -/

theorem rdot_l0 (i : Cert.ReferenceIdeal.S100000x128.Idx) (q : Cert.ReferenceIdeal.dot_S100000x128_S128x128_S100000x128_1_0_0_1_n_n.contr.Idx) : (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem rdot_l1 (i : Cert.ReferenceIdeal.S100000x128.Idx) (q : Cert.ReferenceIdeal.dot_S100000x128_S128x128_S100000x128_1_0_0_1_n_n.contr.Idx) : (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem rdot_r0 (i : Cert.ReferenceIdeal.S100000x128.Idx) (q : Cert.ReferenceIdeal.dot_S100000x128_S128x128_S100000x128_1_0_0_1_n_n.contr.Idx) : (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem rdot_r1 (i : Cert.ReferenceIdeal.S100000x128.Idx) (q : Cert.ReferenceIdeal.dot_S100000x128_S128x128_S100000x128_1_0_0_1_n_n.contr.Idx) : (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- Relation `k`'s weight matrix read at an entry. -/
theorem weightOf_apply (k : Nat) (hk : k < 3) (hR : Cert.ReferenceIdeal.S3x128x128.Slices ![k, 0, 0] Cert.ReferenceIdeal.S1x128x128)
    (W : FVec Ideal S3x128x128 .f32) (q j : Fin 128) :
    Cert.ReferenceIdeal.Conv.weightOf (F := Ideal) k hR W (ix2 q j) = W (ix3 (⟨k, hk⟩ : Fin 3) q j) := by
  refine (shapeCast_apply _ Cert.ReferenceIdeal.Gen.shapeCasts_S1x128x128_S128x128 (ix2 q j) (ix3 (0 : Fin 1) q j) ?_).trans ?_
  · rewrite [Shape.rowMajor_val_three, Shape.rowMajor_val_two]
    show (0 * 128 + q.val) * 128 + j.val = q.val * 128 + j.val
    omega
  refine extractStridedSlice_apply ![k, 0, 0] W hR (ix3 (0 : Fin 1) q j) (ix3 (⟨k, hk⟩ : Fin 3) q j) (fun a => ?_)
  match a with
  | ⟨0, _⟩ => show k = k + 0; omega
  | ⟨1, _⟩ => show q.val = 0 + q.val; omega
  | ⟨2, _⟩ => show j.val = 0 + j.val; omega

/-- Relation `k`'s slab of `xwAll x W` is the reference's x·W[k]. -/
theorem slab_eq (k : Nat) (hk : k < 3) (hK : S3x100000x128.Slices ![k, 0, 0] S1x100000x128)
    (hR : Cert.ReferenceIdeal.S3x128x128.Slices ![k, 0, 0] Cert.ReferenceIdeal.S1x128x128)
    (x : FVec Ideal S100000x128 .f32) (W : FVec Ideal S3x128x128 .f32) :
    slab (F := Ideal) k hK (xwAll x W) = Cert.ReferenceIdeal.Conv.projOf (F := Ideal) k hR x W := by
  funext i
  obtain ⟨n, j, rfl⟩ : ∃ (n : Fin 100000) (j : Fin 128), i = ix2 n j := ⟨i 0, i 1, eq_ix2 i⟩
  -- the slab, read at (n, j)
  have hl : slab (F := Ideal) k hK (xwAll x W) (ix2 n j) = ∑ q : Fin 128, x (ix2 n q) * W (ix3 (⟨k, hk⟩ : Fin 3) q j) := by
    refine (shapeCast_apply _ shapeCasts_S1x100000x128_S100000x128 (ix2 n j) (ix3 (0 : Fin 1) n j) ?_).trans ?_
    · rewrite [Shape.rowMajor_val_three, Shape.rowMajor_val_two]
      show (0 * 100000 + n.val) * 128 + j.val = n.val * 128 + j.val
      omega
    refine (extractStridedSlice_apply ![k, 0, 0] (xwAll x W) hK (ix3 (0 : Fin 1) n j) (ix3 (⟨k, hk⟩ : Fin 3) n j) (fun a => ?_)).trans ?_
    · match a with
      | ⟨0, _⟩ => show k = k + 0; omega
      | ⟨1, _⟩ => show n.val = 0 + n.val; omega
      | ⟨2, _⟩ => show j.val = 0 + j.val; omega
    rfl
  -- the host product, read at (n, j)
  have hr : Cert.ReferenceIdeal.Conv.projOf (F := Ideal) k hR x W (ix2 n j) = ∑ q : Fin 128, x (ix2 n q) * W (ix3 (⟨k, hk⟩ : Fin 3) q j) := by
    show Host.dotGeneral Cert.ReferenceIdeal.dot_S100000x128_S128x128_S100000x128_1_0_0_1_n_n none x (Cert.ReferenceIdeal.Conv.weightOf (F := Ideal) k hR W) (ix2 n j) = _
    simp only [Host.dotGeneral]
    refine (Ideal.dotGeneral_apply Cert.ReferenceIdeal.dot_S100000x128_S128x128_S100000x128_1_0_0_1_n_n none _ x _ (ix2 n j)).trans ?_
    refine (PlainDot.contraction_eq_sum Cert.ReferenceIdeal.dot_S100000x128_S128x128_S100000x128_1_0_0_1_n_n rfl rfl rdot_l0 rdot_l1 rdot_r0 rdot_r1 _ _ n j).trans ?_
    exact Finset.sum_congr rfl fun q _ => congrArg (x (ix2 n q) * ·) (weightOf_apply k hk hR W q j)
  exact hl.trans hr.symm

end Cert.KernelIdeal.Fr

end
-- ==== Proof.KIRun.lean ====
/-
  The idealized kernel's run, read: from any memory with zero counters every weakly fair execution terminates without a
  fault, the four arguments end unchanged, and the result buffer ends at the reference's function of the arguments —
  the region's array is x·W[r] for the three relations, the host lines run the three message passings on its slabs, and
  the final sums differ from the reference's only in their grouping.
-/
import proofs.«168616_j62766652064043_1_alg».proof.Proof.Bridge

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The result buffer after the host lines is the reference's function of the arguments. -/
theorem result_eq (c : Dev nD) :
    Pipeline.afterTail₀ cfgs (dats m) 0 (V0 m) tailOps c main_v164
      = Cert.ReferenceIdeal.Conv.refResult (F := Ideal) (m ((c : Thread nD τ).loc main_arg0)) (m ((c : Thread nD τ).loc main_arg1))
          (m ((c : Thread nD τ).loc main_arg2)) (m ((c : Thread nD τ).loc main_arg3)) := by
  refine (tail_result (F := Ideal) m c).trans ?_
  rw [final m c,
    slab_eq 0 (by omega) slices_S3x100000x128_S1x100000x128_0_0_0 Cert.ReferenceIdeal.Gen.slices_S3x128x128_S1x128x128_0_0_0,
    slab_eq 1 (by omega) slices_S3x100000x128_S1x100000x128_1_0_0 Cert.ReferenceIdeal.Gen.slices_S3x128x128_S1x128x128_1_0_0,
    slab_eq 2 (by omega) slices_S3x100000x128_S1x100000x128_2_0_0 Cert.ReferenceIdeal.Gen.slices_S3x128x128_S1x128x128_2_0_0]
  exact Cert.ReferenceIdeal.Conv.kerResult_eq_refResult _ _ _ _

theorem run_value : θ_run defs (onTc (τ := τ) (main (F := Ideal))) ⟨m, fun _ => 0, ρ⟩ (fun r => ∀ c : Dev nD,
      r.2.mem ((c.tc : Thread nD τ).loc main_v164)
        = Cert.ReferenceIdeal.Conv.refResult (F := Ideal) (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v164 (Pipeline.mem_restRefs_of main_v164 (by decide) (by decide))).trans (result_eq m c),
     ((h c).1 0).trans (((dats m 0 c).arrAt_in 0 rfl _).trans (A_eq m c 0)),
     ((h c).2 main_arg1 (Pipeline.mem_restRefs_of main_arg1 (by decide) (by decide))).trans
       (tail_kept m (dats m) c main_arg1 (Or.inr (Or.inl rfl)) (by decide)),
     ((h c).1 1).trans (((dats m 0 c).arrAt_in 1 rfl _).trans (A_eq m c 1)),
     ((h c).2 main_arg3 (Pipeline.mem_restRefs_of main_arg3 (by decide) (by decide))).trans
       (tail_kept m (dats m) c main_arg3 (Or.inr (Or.inr (Or.inr (Or.inl rfl)))) (by decide))⟩) (run_main m ρ)

end Cert.KernelIdeal.Fr

end
-- ==== Proof.RefFold.lean ====
/-
  The reference's result, as its run states it (one composed term of the 212 host operations), is the specification's
  `refResult` of the four arguments: for each relation the projection x·W[k], the message passing on the relation's
  edge list, the bias row added, and the three sums added to zero one after the other.
-/
import proofs.«168616_j62766652064043_1_alg».proof.Proof.RefRunP
import proofs.«168616_j62766652064043_1_alg».proof.Proof.ConvSpec

noncomputable section

namespace Cert.ReferenceIdeal.Conv

open Cert.ReferenceIdeal Cert.ReferenceIdeal.Gen Idealize.ShloMosaic Idealize.ShloMosaic.TcCoe Idealize.SL.Sem

variable {F : FTy → Type} [FloatOps F]

set_option maxRecDepth 16384 in
set_option maxHeartbeats 4000000 in
theorem res_eq (m : (ℓ : Loc nD τ sig) → Buf (Elt F) ℓ) (c : Dev nD) :
    Cert.ReferenceIdeal.ValueP.res_main_v168 (F := F) m c
      = refResult (F := F) (m ((c.tc : Thread nD τ).loc main_arg0)) (m ((c.tc : Thread nD τ).loc main_arg1))
          (m ((c.tc : Thread nD τ).loc main_arg2)) (m ((c.tc : Thread nD τ).loc main_arg3)) := by
  unfold Cert.ReferenceIdeal.ValueP.res_main_v168 refResult agg
  rfl

end Cert.ReferenceIdeal.Conv

end
-- ==== Proof.lean ====
/-
  The claim for a sum of three graph convolutions (PyG's GCNConv with self-loops and symmetric normalisation) whose
  dense projections x·W[r] are computed by a pallas kernel, against the plain jnp reference.

  The kernel program is one region on a 3 × 25 grid — point (r, i) multiplies rows 4000·i … of x by W[r] into block
  (r, i) of a 3 × 100000 × 128 array — followed by the host lines of the three message passings (degree, D^(-1/2)
  normalisation, gather, segment sum) and the running sum with the biases.

  * The frames: the region only reads x and W through its input windows and writes its own result array; no host line
    writes an argument.  The reference is host operations only.
  * The idealization rewrote nothing, so nothing is owed for it.
  * Equality over the extended reals: rounding the matrix product's operands to bf16 is the identity there, so block
    (r, i) holds ∑ₖ x[n, k]·W[r, k, j] and the blocks tile the array; relation r's slab is therefore the reference's
    x·W[r].  The message passing is the same composition of host operations on both sides, applied to equal
    projections and the same edge lists.  The kernel adds (((((0 + a₀) + b₀) + a₁) + b₁) + a₂) + b₂ where the reference
    adds ((0 + (a₀ + b₀)) + (a₁ + b₁)) + (a₂ + b₂): equal, since addition of extended reals is associative.  No
    finiteness of the inputs is needed.
-/
import proofs.«168616_j62766652064043_1_alg».proof.Defs
import proofs.«168616_j62766652064043_1_alg».proof.Proof.Gen.Kernel
import proofs.«168616_j62766652064043_1_alg».proof.Proof.Gen.KernelIdeal
import proofs.«168616_j62766652064043_1_alg».proof.Proof.Gen.ReferenceIdeal
import proofs.«168616_j62766652064043_1_alg».proof.Proof.Gen.Pre_finite_inputs
import proofs.«168616_j62766652064043_1_alg».proof.Proof.KBody
import proofs.«168616_j62766652064043_1_alg».proof.Proof.KIRun
import proofs.«168616_j62766652064043_1_alg».proof.Proof.RefFold

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem algebraic : Cert.algebraic_KernelIdeal_ReferenceIdeal := by
  intro m ρ m' ρ' _ hagree
  refine ⟨_, Cert.KernelIdeal.Fr.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.Conv.res_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
